-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200x300 : Shape := ⟨3, ![4, 200, 300]⟩
abbrev S4x200x200x300 : Shape := ⟨4, ![4, 200, 200, 300]⟩
abbrev S300x300 : Shape := ⟨2, ![300, 300]⟩
abbrev S300 : Shape := ⟨1, ![300]⟩
abbrev S_ : Shape := ⟨0, ![]⟩

class Facts : Prop where
  bcast_S_S4x200x300 : S_.BroadcastsInDim S4x200x300 (![] : Fin 0 → Fin S4x200x300.rank)
  reducesTo_S4x200x300_S_d0_1_2 : S4x200x300.ReducesTo [0, 1, 2] S_
  h_S_ : 0 < S_.numel
  bcast_S_S4x200x200x300 : S_.BroadcastsInDim S4x200x200x300 (![] : Fin 0 → Fin S4x200x200x300.rank)
  reducesTo_S4x200x200x300_S_d0_1_2_3 : S4x200x200x300.ReducesTo [0, 1, 2, 3] S_
  bcast_S_S300x300 : S_.BroadcastsInDim S300x300 (![] : Fin 0 → Fin S300x300.rank)
  reducesTo_S300x300_S_d0_1 : S300x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg4 : FVec F S300x300 .f32) (main_arg5 : FVec F S300 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x300 .f32 := Host.absf main_arg4
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S4x200x300 .f32) (main_arg1 : FVec F S4x200x200x300 .f32) (main_arg2 : FVec F S300x300 .f32) (main_arg3 : FVec F S300 .f32) (main_arg4 : FVec F S300x300 .f32) (main_arg5 : FVec F S300 .f32) : IVec S_ 1 :=
  let main_v0 : FVec F S4x200x300 .f32 := Host.absf main_arg0
  let main_cst : FVec F S_ .f32 := constant S_ .f32 0x7F800000#32
  let main_v1 : FVec F S4x200x300 .f32 := broadcastInDim S4x200x300 ![] bcast_S_S4x200x300 main_cst
  let main_v2 : IVec S4x200x300 1 := cmpf .olt main_v0 main_v1
  let main_c : IVec S_ 1 := constantI S_ 1 1#1
  let main_v3 : IVec S_ 1 := (fun x v => Host.reduce IntOp.andi x v reducesTo_S4x200x300_S_d0_1_2 h_S_) main_v2 main_c
  let main_v4 : FVec F S4x200x200x300 .f32 := Host.absf main_arg1
  let main_cst_0 : FVec F S_ .f32 := constant S_ .f32 0x7F800000#32
  let main_v5 : FVec F S4x200x200x300 .f32 := broadcastInDim S4x200x200x300 ![] bcast_S_S4x200x200x300 main_cst_0
  let main_v6 : IVec S4x200x200x300 1 := cmpf .olt main_v4 main_v5
  let main_c_1 : IVec S_ 1 := constantI S_ 1 1#1
  let main_v7 : IVec S_ 1 := (fun x v => Host.reduce IntOp.andi x v reducesTo_S4x200x200x300_S_d0_1_2_3 h_S_) main_v6 main_c_1
  let main_v8 : IVec S_ 1 := andi main_v3 main_v7
  let main_v9 : FVec F S300x300 .f32 := Host.absf main_arg2
  let main_cst_2 : FVec F S_ .f32 := constant S_ .f32 0x7F800000#32
  let main_v10 : FVec F S300x300 .f32 := broadcastInDim S300x300 ![] bcast_S_S300x300 main_cst_2
  let main_v11 : IVec S300x300 1 := cmpf .olt main_v9 main_v10
  let main_c_3 : IVec S_ 1 := constantI S_ 1 1#1
  let main_v12 : IVec S_ 1 := (fun x v => Host.reduce IntOp.andi x v reducesTo_S300x300_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_v13 main_v16
-- ==== Kernel.lean ====
abbrev S4x200x300 : Shape := ⟨3, ![4, 200, 300]⟩
abbrev S4x200x200x300 : Shape := ⟨4, ![4, 200, 200, 300]⟩
abbrev S300x300 : Shape := ⟨2, ![300, 300]⟩
abbrev S300 : Shape := ⟨1, ![300]⟩
abbrev S800x300 : Shape := ⟨2, ![800, 300]⟩
abbrev S1x1x300 : Shape := ⟨3, ![1, 1, 300]⟩
abbrev S1x8x200x300 : Shape := ⟨4, ![1, 8, 200, 300]⟩
abbrev S1x8x300 : Shape := ⟨3, ![1, 8, 300]⟩
abbrev S1x200x300 : Shape := ⟨3, ![1, 200, 300]⟩
abbrev S8x200x300 : Shape := ⟨3, ![8, 200, 300]⟩
abbrev S8x300 : Shape := ⟨2, ![8, 300]⟩
abbrev S200x300 : Shape := ⟨2, ![200, 300]⟩
abbrev S1600x300 : Shape := ⟨2, ![1600, 300]⟩
abbrev S8x1x300 : Shape := ⟨3, ![8, 1, 300]⟩

abbrev nBuf : Space → Nat
  | .hbm => 10
  | .vmem => 14
  | .smem => 0
  | _ => 0

abbrev bufTy : (tb : Table) → Fin (tcTables nBuf tb) → BufTy
  | .hbm, ⟨0, _⟩ => ⟨S4x200x300, .f32⟩
  | .hbm, ⟨1, _⟩ => ⟨S4x200x200x300, .f32⟩
  | .hbm, ⟨2, _⟩ => ⟨S300x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S300x300, .f32⟩
  | .hbm, ⟨7, _⟩ => ⟨S4x200x300, .f32⟩
  | .hbm, ⟨8, _⟩ => ⟨S300x300, .f32⟩
  | .hbm, ⟨9, _⟩ => ⟨S4x200x200x300, .f32⟩
  | .local _ .vmem, ⟨0, _⟩ => ⟨S4x200x300, .f32⟩
  | .local _ .vmem, ⟨1, _⟩ => ⟨S300x300, .f32⟩
  | .local _ .vmem, ⟨2, _⟩ => ⟨S300, .f32⟩
  | .local _ .vmem, ⟨3, _⟩ => ⟨S4x200x300, .f32⟩
  | .local _ .vmem, ⟨4, _⟩ => ⟨S1x8x200x300, .f32⟩
  | .local _ .vmem, ⟨5, _⟩ => ⟨S1x8x200x300, .f32⟩
  | .local _ .vmem, ⟨6, _⟩ => ⟨S300x300, .f32⟩
  | .local _ .vmem, ⟨7, _⟩ => ⟨S300, .f32⟩
  | .local _ .vmem, ⟨8, _⟩ => ⟨S1x8x300, .f32⟩
  | .local _ .vmem, ⟨9, _⟩ => ⟨S1x8x300, .f32⟩
  | .local _ .vmem, ⟨10, _⟩ => ⟨S1x200x300, .f32⟩
  | .local _ .vmem, ⟨11, _⟩ => ⟨S1x200x300, .f32⟩
  | .local _ .vmem, ⟨12, _⟩ => ⟨S1x8x200x300, .f32⟩
  | .local _ .vmem, ⟨13, _⟩ => ⟨S1x8x200x300, .f32⟩
  | _, _ => ⟨S4x200x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x200x300 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S300x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x200x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![4, 25], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x8x200x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S300x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x8x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x200x300 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x8x200x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S300x300_S300x300_1_0 : S300x300.Transposes [1, 0] S300x300
  inb_S4x200x300_S4x200x300_0_0_0 : ∀ a, (![0, 0, 0] : Fin 3 → Nat) a + S4x200x300.size a ≤ S4x200x300.size a
  h_S4x200x300 : 0 < S4x200x300.numel
  inb_S300x300_S300x300_0_0 : ∀ a, (![0, 0] : Fin 2 → Nat) a + S300x300.size a ≤ S300x300.size a
  h_S300x300 : 0 < S300x300.numel
  shapeCasts_S300x300_S300x300 : S300x300.ShapeCasts S300x300
  bitsLt_bf16_f32 : FTy.bits .bf16 < FTy.bits .f32
  inb_S300_S300_0 : ∀ a, (![0] : Fin 1 → Nat) a + S300.size a ≤ S300.size a
  h_S300 : 0 < S300.numel
  shapeCasts_S4x200x300_S800x300 : S4x200x300.ShapeCasts S800x300
  shapeCasts_S800x300_S4x200x300 : S800x300.ShapeCasts S4x200x300
  shapeCasts_S300_S1x1x300 : S300.ShapeCasts S1x1x300
  broadcasts_S1x1x300_S4x200x300 : S1x1x300.Broadcasts S4x200x300
  inb_S1x8x200x300_S1x8x200x300_0_0_0_0 : ∀ a, (![0, 0, 0, 0] : Fin 4 → Nat) a + S1x8x200x300.size a ≤ S1x8x200x300.size a
  h_S1x8x200x300 : 0 < S1x8x200x300.numel
  shapeCasts_S1x8x200x300_S8x200x300 : S1x8x200x300.ShapeCasts S8x200x300
  inb_S1x8x300_S1x8x300_0_0_0 : ∀ a, (![0, 0, 0] : Fin 3 → Nat) a + S1x8x300.size a ≤ S1x8x300.size a
  h_S1x8x300 : 0 < S1x8x300.numel
  shapeCasts_S1x8x300_S8x300 : S1x8x300.ShapeCasts S8x300
  inb_S1x200x300_S1x200x300_0_0_0 : ∀ a, (![0, 0, 0] : Fin 3 → Nat) a + S1x200x300.size a ≤ S1x200x300.size a
  h_S1x200x300 : 0 < S1x200x300.numel
  shapeCasts_S1x200x300_S200x300 : S1x200x300.ShapeCasts S200x300
  shapeCasts_S8x200x300_S1600x300 : S8x200x300.ShapeCasts S1600x300
  shapeCasts_S1600x300_S8x200x300 : S1600x300.ShapeCasts S8x200x300
  broadcasts_S1x1x300_S8x200x300 : S1x1x300.Broadcasts S8x200x300
  shapeCasts_S8x300_S8x1x300 : S8x300.ShapeCasts S8x1x300
  broadcasts_S8x1x300_S8x200x300 : S8x1x300.Broadcasts S8x200x300
  shapeCasts_S200x300_S1x200x300 : S200x300.ShapeCasts S1x200x300
  broadcasts_S1x200x300_S8x200x300 : S1x200x300.Broadcasts S8x200x300
  shapeCasts_S8x200x300_S1x8x200x300 : S8x200x300.ShapeCasts S1x8x200x300
  dot_S800x300_S300x300_S800x300_1_0_0_1_n_n_wf : DotDims.WF S800x300 S300x300 S800x300 [1] [0] [0] [1] [] []
  dot_S1600x300_S300x300_S1600x300_1_0_0_1_n_n_wf : DotDims.WF S1600x300 S300x300 S1600x300 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x200x300.size a ≤ S4x200x300.size a
  hwx0_0 : ∀ i : grid0.Coords, EltTy.bits .f32 = 32 ∨ (Rect.block (s := S4x200x300) S4x200x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x300.size a ≤ S300x300.size a
  hwx0_1 : ∀ i : grid0.Coords, EltTy.bits .f32 = 32 ∨ (Rect.block (s := S300x300) S300x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300.size a ≤ S300.size a
  hwx0_2 : ∀ i : grid0.Coords, EltTy.bits .f32 = 32 ∨ (Rect.block (s := S300) S300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x200x300.size a ≤ S4x200x300.size a
  hwx0_3 : ∀ i : grid0.Coords, EltTy.bits .f32 = 32 ∨ (Rect.block (s := S4x200x300) S4x200x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x200x300.size a ≤ S4x200x200x300.size a
  hwx1_0 : ∀ i : grid1.Coords, EltTy.bits .f32 = 32 ∨ (Rect.block (s := S4x200x200x300) S1x8x200x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x300.size a ≤ S300x300.size a
  hwx1_1 : ∀ i : grid1.Coords, EltTy.bits .f32 = 32 ∨ (Rect.block (s := S300x300) S300x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300.size a ≤ S300.size a
  hwx1_2 : ∀ i : grid1.Coords, EltTy.bits .f32 = 32 ∨ (Rect.block (s := S300) S300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x300.size a ≤ S4x200x300.size a
  hwx1_3 : ∀ i : grid1.Coords, EltTy.bits .f32 = 32 ∨ (Rect.block (s := S4x200x300) S1x8x300.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x200x300.size a ≤ S4x200x300.size a
  hwx1_4 : ∀ i : grid1.Coords, EltTy.bits .f32 = 32 ∨ (Rect.block (s := S4x200x300) S1x200x300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x200x300.size a ≤ S4x200x200x300.size a
  hwx1_5 : ∀ i : grid1.Coords, EltTy.bits .f32 = 32 ∨ (Rect.block (s := S4x200x200x300) S1x8x200x300.size (cc1_transform_5 i) (hinb1_5 i)).WholeWords (EltTy.packing .f32)

variable [Facts₀]

def dot_S800x300_S300x300_S800x300_1_0_0_1_n_n : DotDims S800x300 S300x300 S800x300 where
  lhsContracting := [1]
  rhsContracting := [0]
  lhsNonContracting := [0]
  rhsNonContracting := [1]
  lhsBatch := []
  rhsBatch := []
  wf := dot_S800x300_S300x300_S800x300_1_0_0_1_n_n_wf
def dot_S1600x300_S300x300_S1600x300_1_0_0_1_n_n : DotDims S1600x300 S300x300 S1600x300 where
  lhsContracting := [1]
  rhsContracting := [0]
  lhsNonContracting := [0]
  rhsNonContracting := [1]
  lhsBatch := []
  rhsBatch := []
  wf := dot_S1600x300_S300x300_S1600x300_1_0_0_1_n_n_wf

abbrev win0_0 : Pipeline.Window sig grid0 :=
  Pipeline.Window.ofSpec (Memref.whole main_arg0) S4x200x300.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x200x300.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x8x200x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S300x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x8x300.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x200x300.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x8x200x300.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x200x300 : Shape := ⟨3, ![4, 200, 300]⟩
abbrev S4x200x200x300 : Shape := ⟨4, ![4, 200, 200, 300]⟩
abbrev S300x300 : Shape := ⟨2, ![300, 300]⟩
abbrev S300 : Shape := ⟨1, ![300]⟩
abbrev S1x1x1x300 : Shape := ⟨4, ![1, 1, 1, 300]⟩
abbrev S1x1x300 : Shape := ⟨3, ![1, 1, 300]⟩
abbrev S4x200x1x300 : Shape := ⟨4, ![4, 200, 1, 300]⟩
abbrev S4x1x200x300 : Shape := ⟨4, ![4, 1, 200, 300]⟩

abbrev nBuf : Space → Nat
  | .hbm => 20
  | .vmem => 0
  | .smem => 0
  | _ => 0

abbrev bufTy : (tb : Table) → Fin (tcTables nBuf tb) → BufTy
  | .hbm, ⟨0, _⟩ => ⟨S4x200x300, .f32⟩
  | .hbm, ⟨1, _⟩ => ⟨S4x200x200x300, .f32⟩
  | .hbm, ⟨2, _⟩ => ⟨S300x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S4x200x200x300, .f32⟩
  | .hbm, ⟨7, _⟩ => ⟨S1x1x1x300, .f32⟩
  | .hbm, ⟨8, _⟩ => ⟨S4x200x200x300, .f32⟩
  | .hbm, ⟨9, _⟩ => ⟨S4x200x200x300, .f32⟩
  | .hbm, ⟨10, _⟩ => ⟨S4x200x300, .f32⟩
  | .hbm, ⟨11, _⟩ => ⟨S1x1x300, .f32⟩
  | .hbm, ⟨12, _⟩ => ⟨S4x200x300, .f32⟩
  | .hbm, ⟨13, _⟩ => ⟨S4x200x300, .f32⟩
  | .hbm, ⟨14, _⟩ => ⟨S4x200x1x300, .f32⟩
  | .hbm, ⟨15, _⟩ => ⟨S4x200x200x300, .f32⟩
  | .hbm, ⟨16, _⟩ => ⟨S4x200x200x300, .f32⟩
  | .hbm, ⟨17, _⟩ => ⟨S4x1x200x300, .f32⟩
  | .hbm, ⟨18, _⟩ => ⟨S4x200x200x300, .f32⟩
  | .hbm, ⟨19, _⟩ => ⟨S4x200x200x300, .f32⟩
  | _, _ => ⟨S4x200x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S300_S1x1x1x300_3 : S300.BroadcastsInDim S1x1x1x300 (![3] : Fin 1 → Fin S1x1x1x300.rank)
  bcast_S1x1x1x300_S4x200x200x300_0_1_2_3 : S1x1x1x300.BroadcastsInDim S4x200x200x300 (![0, 1, 2, 3] : Fin 4 → Fin S4x200x200x300.rank)
  bcast_S300_S1x1x300_2 : S300.BroadcastsInDim S1x1x300 (![2] : Fin 1 → Fin S1x1x300.rank)
  bcast_S1x1x300_S4x200x300_0_1_2 : S1x1x300.BroadcastsInDim S4x200x300 (![0, 1, 2] : Fin 3 → Fin S4x200x300.rank)
  bcast_S4x200x300_S4x200x1x300_0_1_3 : S4x200x300.BroadcastsInDim S4x200x1x300 (![0, 1, 3] : Fin 3 → Fin S4x200x1x300.rank)
  bcast_S4x200x1x300_S4x200x200x300_0_1_2_3 : S4x200x1x300.BroadcastsInDim S4x200x200x300 (![0, 1, 2, 3] : Fin 4 → Fin S4x200x200x300.rank)
  bcast_S4x200x300_S4x1x200x300_0_2_3 : S4x200x300.BroadcastsInDim S4x1x200x300 (![0, 2, 3] : Fin 3 → Fin S4x1x200x300.rank)
  bcast_S4x1x200x300_S4x200x200x300_0_1_2_3 : S4x1x200x300.BroadcastsInDim S4x200x200x300 (![0, 1, 2, 3] : Fin 4 → Fin S4x200x200x300.rank)
  dot_S4x200x200x300_S300x300_S4x200x200x300_3_1_012_0_n_n_wf : DotDims.WF S4x200x200x300 S300x300 S4x200x200x300 [3] [1] [0, 1, 2] [0] [] []
  dot_S4x200x300_S300x300_S4x200x300_2_1_01_0_n_n_wf : DotDims.WF S4x200x300 S300x300 S4x200x300 [2] [1] [0, 1] [0] [] []

variable [Facts₀]

def dot_S4x200x200x300_S300x300_S4x200x200x300_3_1_012_0_n_n : DotDims S4x200x200x300 S300x300 S4x200x200x300 where
  lhsContracting := [3]
  rhsContracting := [1]
  lhsNonContracting := [0, 1, 2]
  rhsNonContracting := [0]
  lhsBatch := []
  rhsBatch := []
  wf := dot_S4x200x200x300_S300x300_S4x200x200x300_3_1_012_0_n_n_wf
def dot_S4x200x300_S300x300_S4x200x300_2_1_01_0_n_n : DotDims S4x200x300 S300x300 S4x200x300 where
  lhsContracting := [2]
  rhsContracting := [1]
  lhsNonContracting := [0, 1]
  rhsNonContracting := [0]
  lhsBatch := []
  rhsBatch := []
  wf := dot_S4x200x300_S300x300_S4x200x300_2_1_01_0_n_n_wf

class Facts : Prop extends Facts₀ where

variable [Facts]
-- ==== Proof.WordsNodeRegion.lean ====
/-
  The first kernel region: the node projection. Its grid has one point; its three input windows (the node features,
  the transposed projection weights, the bias) and its output window each hold their whole array as one block. The
  body loads the three inputs whole and stores one value, a function of the three loads, over the whole output
  block. Stated for any float instance and any contents `V` the region may be entered from.
-/
import proofs.«102349_j48601849922135_1_alg».proof.Proof.Gen.Kernel.Launch
import proofs.«102349_j48601849922135_1_alg».proof.Proof.Gen.Kernel.Skeleton
import proofs.«102349_j48601849922135_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s
    and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rX : Rect S4x200x300 := Rect.unit (s := S4x200x300) ![0, 0, 0] S4x200x300.size inb_S4x200x300_S4x200x300_0_0_0
abbrev rW : Rect S300x300 := Rect.unit (s := S300x300) ![0, 0] S300x300.size inb_S300x300_S300x300_0_0
abbrev rB : Rect S300 := Rect.unit (s := S300) ![0] S300.size inb_S300_S300_0

/-- The output window's staging buffer after the body, from the three input blocks: its one store. -/
def out (x0 : Vec F S4x200x300 .f32) (x1 : Vec F S300x300 .f32) (x2 : Vec F S300 .f32) : Vec F S4x200x300 .f32 :=
  View.canon [⟨rX, k0_pay1 (View.ld x0 rX) (View.ld x1 rW) (View.ld x2 rB)⟩]

/-- The one store covers the buffer. -/
theorem cover (p0 : Vec F S4x200x300 .f32) (y : S4x200x300.Idx) :
    ∃ pc ∈ ([⟨rX, p0⟩] : List (View.Piece (Elt F) S4x200x300 .f32)), y ∈ pc.1.set :=
  View.cover_of_tiled [⟨rX, p0⟩] S4x200x300.size (by rfl) y

set_option maxHeartbeats 1000000 in
/-- The body on whole staging memrefs, the inputs' at contents `x0 x1 x2` and the output's at anything, runs to the
    continuation holding the inputs' as they were and the output's at `out x0 x1 x2`. -/
theorem sound_kernel (c : Dev nD) (E : Set ℕ) (i : grid0.Coords) (arg1 : Memref sig .tc .vmem S4x200x300 .f32) (harg1 : arg1.IsWhole)
    (arg2 : Memref sig .tc .vmem S300x300 .f32) (harg2 : arg2.IsWhole) (arg3 : Memref sig .tc .vmem S300 .f32) (harg3 : arg3.IsWhole)
    (arg4 : Memref sig .tc .vmem S4x200x300 .f32) (harg4 : arg4.IsWhole)
    (x0 : Vec F S4x200x300 .f32) (x1 : Vec F S300x300 .f32) (x2 : Vec F S300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out x0 x1 x2)) -∗ K ⟨⟩))
      ⊢ wp frame (wpE (defs₀ (F := F)) Variants.none c none) E (cc0__vx_kernel i arg1 harg1 arg2 harg2 arg3 harg3 arg4 harg4) K := by
  simp only [cc0__vx_kernel_eq_skeleton]; unfold cc0__vx_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The proof data of the region on core `c`: the arrays as the region finds them; after the body each input's buffer
    at its block and the output's at `out` of the input blocks; the invariant the scoped rest and the generator register,
    untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Node

end
-- ==== Proof.WordsEdgeRegion.lean ====
/-
  The second kernel region: the edge update. Its grid has 4 × 25 points; at point (b, i) the body sees eight rows
  `8i … 8i+7` of graph `b`'s edge features (a 1×8×200×300 block), the transposed edge weights and the bias whole, the
  node projections of those eight source nodes (1×8×300) and of all 200 target nodes of graph `b` (1×200×300) — two
  windows on ONE array, each holding it at half of the full share — and stores one value, a function of the five loads,
  over the whole 1×8×200×300 output block. Stated for any float instance and any contents `V` the region is entered from.
-/
import proofs.«102349_j48601849922135_1_alg».proof.Proof.Gen.Kernel.Launch
import proofs.«102349_j48601849922135_1_alg».proof.Proof.Gen.Kernel.Skeleton
import proofs.«102349_j48601849922135_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not, the
    block index has not moved), for any proof data whose array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rE : Rect S1x8x200x300 := Rect.unit (s := S1x8x200x300) ![0, 0, 0, 0] S1x8x200x300.size inb_S1x8x200x300_S1x8x200x300_0_0_0_0
abbrev rW : Rect S300x300 := Rect.unit (s := S300x300) ![0, 0] S300x300.size inb_S300x300_S300x300_0_0
abbrev rB : Rect S300 := Rect.unit (s := S300) ![0] S300.size inb_S300_S300_0
abbrev rI : Rect S1x8x300 := Rect.unit (s := S1x8x300) ![0, 0, 0] S1x8x300.size inb_S1x8x300_S1x8x300_0_0_0
abbrev rJ : Rect S1x200x300 := Rect.unit (s := S1x200x300) ![0, 0, 0] S1x200x300.size inb_S1x200x300_S1x200x300_0_0_0

/-- The output window's staging buffer after the body, from the five input blocks: its one store. -/
def out (x0 : Vec F S1x8x200x300 .f32) (x1 : Vec F S300x300 .f32) (x2 : Vec F S300 .f32) (x3 : Vec F S1x8x300 .f32) (x4 : Vec F S1x200x300 .f32) :
    Vec F S1x8x200x300 .f32 :=
  View.canon [⟨rE, k1_pay1 (View.ld x0 rE) (View.ld x1 rW) (View.ld x2 rB) (View.ld x3 rI) (View.ld x4 rJ)⟩]

/-- The one store covers the buffer. -/
theorem cover (p0 : Vec F S1x8x200x300 .f32) (y : S1x8x200x300.Idx) :
    ∃ pc ∈ ([⟨rE, p0⟩] : List (View.Piece (Elt F) S1x8x200x300 .f32)), y ∈ pc.1.set :=
  View.cover_of_tiled [⟨rE, p0⟩] S1x8x200x300.size (by rfl) y

set_option maxHeartbeats 1000000 in
/-- The body on whole staging memrefs, the inputs' at contents `x0 … x4` and the output's at anything, runs to the
    continuation holding the inputs' as they were and the output's at `out x0 … x4`. -/
theorem sound_kernel (c : Dev nD) (E : Set ℕ) (i : grid1.Coords) (arg2 : Memref sig .tc .vmem S1x8x200x300 .f32) (harg2 : arg2.IsWhole)
    (arg3 : Memref sig .tc .vmem S300x300 .f32) (harg3 : arg3.IsWhole) (arg4 : Memref sig .tc .vmem S300 .f32) (harg4 : arg4.IsWhole)
    (arg5 : Memref sig .tc .vmem S1x8x300 .f32) (harg5 : arg5.IsWhole) (arg6 : Memref sig .tc .vmem S1x200x300 .f32) (harg6 : arg6.IsWhole)
    (arg7 : Memref sig .tc .vmem S1x8x200x300 .f32) (harg7 : arg7.IsWhole)
    (x0 : Vec F S1x8x200x300 .f32) (x1 : Vec F S300x300 .f32) (x2 : Vec F S300 .f32) (x3 : Vec F S1x8x300 .f32) (x4 : Vec F S1x200x300 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out x0 x1 x2 x3 x4)) -∗ K ⟨⟩))
      ⊢ wp frame (wpE (defs₀ (F := F)) Variants.none c none) E
          (cc1__edge_kernel i arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The proof data of the region on core `c`: the arrays as the region finds them; after the body each input's buffer
    at its block and the output's at `out` of the input blocks; the invariant the scoped rest and the generator register,
    untouched; nothing owed; every input array held at the full share except the node projections, read by two
    windows, which each hold one half of it. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec1 c
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = out (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Edge

end
-- ==== Proof.WordsEdgeArrays.lean ====
/-
  The second region's arrays among the core's unscoped buffers. Five distinct buffers stand behind its six windows:
  the edge features, the transposed edge weights, the edge bias, the node projections (read by two windows) and the
  output. Entering the region, the full share of the node projections is split in two halves, one per window; leaving
  it, the halves are joined again. Every other array is held by its one window at the full share.
-/
import proofs.«102349_j48601849922135_1_alg».proof.Proof.WordsEdgeRegion

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v2) ↦{fullShare} W main_v2)
          ∗ (((c : Thread nD τ).loc main_arg3) ↦{fullShare} W main_arg3) ∗ (((c : Thread nD τ).loc main_v1) ↦{fullShare} W main_v1)
          ∗ (((c : Thread nD τ).loc main_v3) ↦{fullShare} W main_v3)) := by
  unfold Pipeline.arrBufs
  exact bigSep_eq_bigSepL_of_eq [main_arg1, main_v2, main_arg3, main_v1, main_v3] (by decide) (by decide) _

/-- The region's arrays at contents `G`, window by window, each a whole buffer at its window's share. -/
theorem arrays_eq (c : Dev nD) (G : (w : Fin cfg1.W) → Buf (Elt F) ((cfg1.win w).arr.view.loc (c : Thread nD τ))) :
    ((dat V c).arrays G : sProp 𝕄)
      = iprop((((c : Thread nD τ).loc main_arg1) ↦{fullShare} G 0) ∗ (((c : Thread nD τ).loc main_v2) ↦{fullShare} G 1)
          ∗ (((c : Thread nD τ).loc main_arg3) ↦{fullShare} G 2) ∗ (((c : Thread nD τ).loc main_v1) ↦{fullShare.left} G 3)
          ∗ (((c : Thread nD τ).loc main_v1) ↦{fullShare.right} G 4) ∗ (((c : Thread nD τ).loc main_v3) ↦{fullShare} G 5)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, (arr_whole1 5).set_eq_univ]
  rfl

/-- The core's unscoped buffers are the buffers behind the windows' arrays and the rest. -/
theorem bufs_split (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- ENTRY: the core's unscoped buffers at contents `W` are the region's arrays at `W`'s contents and the rest. -/
theorem arrays_of_bufs (c : Dev nD) (G : (w : Fin cfg1.W) → Buf (Elt F) ((cfg1.win w).arr.view.loc (c : Thread nD τ)))
    (hG : ∀ w, G w = V c (Pipeline.arrRef spec1 w)) :
    (unscopedBufs c (V c) : sProp 𝕄) ⊢ iprop((dat V c).arrays G ∗ Pipeline.unscopedRest (Ix := Unit) (Name := ℕ) (U := UR sig nD τ) (Lvl := ℕ) spec1 c (V c)) := by
  rw [bufs_split c (V c), arrBufs_eq, arrays_eq, hG 0, hG 1, hG 2, hG 3, hG 4, hG 5]
  iintro ⟨⟨H0, H1, H2, H34, H5⟩, Hr⟩
  ihave H' := (pointsTo_share (PosShare.mem_left_op_right fullShare)).1 $$ H34
  icases H' with ⟨H3, H4⟩
  isplitr [Hr]
  · isplitl [H0]; · iexact H0
    isplitl [H1]; · iexact H1
    isplitl [H2]; · iexact H2
    isplitl [H3]; · iexact H3
    isplitl [H4]; · iexact H4
    iexact H5
  iexact Hr

/-- EXIT: the region's arrays at contents `G` and the rest at `V` are the core's unscoped buffers at any contents `W'` that
    has each array's buffer at `G` and agrees with `V` off the arrays. -/
theorem bufs_of_arrays (c : Dev nD) (W' : (b : Ref sig .tc) → Buf (Elt F) ((c : Thread nD τ).loc b))
    (G : (w : Fin cfg1.W) → Buf (Elt F) ((cfg1.win w).arr.view.loc (c : Thread nD τ)))
    (hG : ∀ w, G w = W' (Pipeline.arrRef spec1 w))
    (hrest : ∀ b, b ∉ Finset.univ.image (Pipeline.arrRef spec1) → W' b = V c b) :
    iprop((dat V c).arrays G ∗ Pipeline.unscopedRest (Ix := Unit) (Name := ℕ) (U := UR sig nD τ) (Lvl := ℕ) spec1 c (V c)) ⊢ (unscopedBufs c W' : sProp 𝕄) := by
  rw [bufs_split c W', arrBufs_eq, arrays_eq, hG 0, hG 1, hG 2, hG 3, hG 4, hG 5]
  have hr : (Pipeline.unscopedRest (Ix := Unit) (Name := ℕ) (U := UR sig nD τ) (Lvl := ℕ) spec1 c W' : sProp 𝕄)
      = Pipeline.unscopedRest spec1 c (V c) := by
    unfold Pipeline.unscopedRest
    exact bigSep_congr fun b hb => by rw [hrest b (Finset.mem_sdiff.mp hb).2]
  rw [hr]
  iintro ⟨⟨H0, H1, H2, H3, H4, H5⟩, Hr⟩
  isplitr [Hr]
  · isplitl [H0]; · iexact H0
    isplitl [H1]; · iexact H1
    isplitl [H2]; · iexact H2
    isplitl [H3 H4]
    · iapply (pointsTo_share (PosShare.mem_left_op_right fullShare)).2
      isplitl [H3]; · iexact H3
      iexact H4
    iexact H5
  iexact Hr

end Cert.Kernel.Edge

end
-- ==== Proof.WordsRun.lean ====
/-
  The whole run: @main is a transposition on the host, the node-projection region, another transposition, the
  edge-update region. The contents of every unscoped buffer are followed through the four items from the launch memory:
  a transposition writes its result, a region leaves each of its output arrays at what its write-backs fold to and every
  other buffer as it found it. The run ends with every unscoped buffer at the last of these contents; no item writes an
  argument, so each argument ends as launched, and the result array ends at the fold of the second region's write-backs.
-/
import proofs.«102349_j48601849922135_1_alg».proof.Proof.WordsNodeRegion
import proofs.«102349_j48601849922135_1_alg».proof.Proof.WordsEdgeArrays
import proofs.«102349_j48601849922135_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first transposition (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (Node.dat (V1 m) c).arrAt w cfg0.N
theorem W2_arr (c : Dev nD) (w : Fin cfg0.W) :
    W2 m c (Proc.devRef .tc (Pipeline.arrRef spec0 w)) = (Node.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Node.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second transposition (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: its one output array at what the pipeline leaves, every other buffer as entered (its
    input arrays, two of them one buffer, are left as found). -/
def W4 (c : Dev nD) : Valuation τ sig (Elt F) :=
  Function.update (W3 m c) main_v3 ((Edge.dat (V3 m) c).arrAt 5 cfg1.N)
theorem W4_out (c : Dev nD) : W4 m c (Proc.devRef .tc main_v3) = (Edge.dat (V3 m) c).arrAt 5 cfg1.N := by
  unfold W4; exact Function.update_self ..
theorem W4_of_ne (c : Dev nD) (b : Ref sig .tc) (hb : b ≠ main_v3) :
    W4 m c (Proc.devRef .tc b) = W3 m c (Proc.devRef .tc b) := by
  unfold W4
  exact Function.update_of_ne (StableHlo.devRef_ne_of_ne hb : (Proc.devRef .tc b : DevRef τ sig) ≠ Proc.devRef .tc main_v3) _ _
abbrev V4 : (c : Dev nD) → (b : Ref sig .tc) → Buf (Elt F) ((c : Thread nD τ).loc b) := fun c b => W4 m c b
theorem hF1 (c : Dev nD) : ∀ w : Fin cfg1.W, (Edge.dat (V3 m) c).arrAt w cfg1.N = V4 m c (Pipeline.arrRef spec1 w)
  | ⟨0, _⟩ => (((Edge.dat (V3 m) c).arrAt_in 0 rfl _).trans (Edge.A_eq (V3 m) c 0)).trans (W4_of_ne m c main_arg1 (by decide)).symm
  | ⟨1, _⟩ => (((Edge.dat (V3 m) c).arrAt_in 1 rfl _).trans (Edge.A_eq (V3 m) c 1)).trans (W4_of_ne m c main_v2 (by decide)).symm
  | ⟨2, _⟩ => (((Edge.dat (V3 m) c).arrAt_in 2 rfl _).trans (Edge.A_eq (V3 m) c 2)).trans (W4_of_ne m c main_arg3 (by decide)).symm
  | ⟨3, _⟩ => (((Edge.dat (V3 m) c).arrAt_in 3 rfl _).trans (Edge.A_eq (V3 m) c 3)).trans (W4_of_ne m c main_v1 (by decide)).symm
  | ⟨4, _⟩ => (((Edge.dat (V3 m) c).arrAt_in 4 rfl _).trans (Edge.A_eq (V3 m) c 4)).trans (W4_of_ne m c main_v1 (by decide)).symm
  | ⟨5, _⟩ => (W4_out m c).symm
theorem hrest1 (c : Dev nD) : ∀ b, b ∉ Finset.univ.image (Pipeline.arrRef spec1) → V4 m c b = V3 m c b :=
  fun b hb => W4_of_ne m c b fun e => hb (Finset.mem_image.mpr ⟨5, Finset.mem_univ _, e.symm⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((Node.dat (V1 m) c).arrAt_in 0 rfl _).trans (Node.A_eq (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 2).trans (((Node.dat (V1 m) c).arrAt_in 2 rfl _).trans (Node.A_eq (V1 m) c 2))
    _ = W0 m c (Proc.devRef .tc main_arg5) := StableHlo.after_of_writes_sub hostOps0 _ hostOps0_writes (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Node.dat (V1 m) c
  | ⟨1, _⟩ => fun c => Edge.dat (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Node.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. Two of its input
    windows read one array: the array's full share is split between them at the entry and joined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Edge.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Edge.arrays_of_bufs (V3 m) c ((pdats m 1 c).arrAt · 0) (fun w => Edge.A_eq (V3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Edge.bufs_of_arrays (V3 m) c (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Whole

end
-- ==== Proof.IdealNodeRegion.lean ====
/-
  The first kernel region: the node projection. Its grid has one point; its three input windows (the node features,
  the transposed projection weights, the bias) and its output window each hold their whole array as one block. The
  body loads the three inputs whole and stores one value, a function of the three loads, over the whole output
  block. Stated for any float instance and any contents `V` the region may be entered from.
-/
import proofs.«102349_j48601849922135_1_alg».proof.Proof.Gen.KernelIdeal.Launch
import proofs.«102349_j48601849922135_1_alg».proof.Proof.Gen.KernelIdeal.Skeleton
import proofs.«102349_j48601849922135_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s
    and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rX : Rect S4x200x300 := Rect.unit (s := S4x200x300) ![0, 0, 0] S4x200x300.size inb_S4x200x300_S4x200x300_0_0_0
abbrev rW : Rect S300x300 := Rect.unit (s := S300x300) ![0, 0] S300x300.size inb_S300x300_S300x300_0_0
abbrev rB : Rect S300 := Rect.unit (s := S300) ![0] S300.size inb_S300_S300_0

/-- The output window's staging buffer after the body, from the three input blocks: its one store. -/
def out (x0 : Vec F S4x200x300 .f32) (x1 : Vec F S300x300 .f32) (x2 : Vec F S300 .f32) : Vec F S4x200x300 .f32 :=
  View.canon [⟨rX, k0_pay1 (View.ld x0 rX) (View.ld x1 rW) (View.ld x2 rB)⟩]

/-- The one store covers the buffer. -/
theorem cover (p0 : Vec F S4x200x300 .f32) (y : S4x200x300.Idx) :
    ∃ pc ∈ ([⟨rX, p0⟩] : List (View.Piece (Elt F) S4x200x300 .f32)), y ∈ pc.1.set :=
  View.cover_of_tiled [⟨rX, p0⟩] S4x200x300.size (by rfl) y

set_option maxHeartbeats 1000000 in
/-- The body on whole staging memrefs, the inputs' at contents `x0 x1 x2` and the output's at anything, runs to the
    continuation holding the inputs' as they were and the output's at `out x0 x1 x2`. -/
theorem sound_kernel (c : Dev nD) (E : Set ℕ) (i : grid0.Coords) (arg1 : Memref sig .tc .vmem S4x200x300 .f32) (harg1 : arg1.IsWhole)
    (arg2 : Memref sig .tc .vmem S300x300 .f32) (harg2 : arg2.IsWhole) (arg3 : Memref sig .tc .vmem S300 .f32) (harg3 : arg3.IsWhole)
    (arg4 : Memref sig .tc .vmem S4x200x300 .f32) (harg4 : arg4.IsWhole)
    (x0 : Vec F S4x200x300 .f32) (x1 : Vec F S300x300 .f32) (x2 : Vec F S300 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out x0 x1 x2)) -∗ K ⟨⟩))
      ⊢ wp frame (wpE (defs₀ (F := F)) Variants.none c none) E (cc0__vx_kernel i arg1 harg1 arg2 harg2 arg3 harg3 arg4 harg4) K := by
  simp only [cc0__vx_kernel_eq_skeleton]; unfold cc0__vx_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The proof data of the region on core `c`: the arrays as the region finds them; after the body each input's buffer
    at its block and the output's at `out` of the input blocks; the invariant the scoped rest and the generator register,
    untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = out (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Node

end
-- ==== Proof.IdealEdgeRegion.lean ====
/-
  The second kernel region: the edge update. Its grid has 4 × 25 points; at point (b, i) the body sees eight rows
  `8i … 8i+7` of graph `b`'s edge features (a 1×8×200×300 block), the transposed edge weights and the bias whole, the
  node projections of those eight source nodes (1×8×300) and of all 200 target nodes of graph `b` (1×200×300) — two
  windows on ONE array, each holding it at half of the full share — and stores one value, a function of the five loads,
  over the whole 1×8×200×300 output block. Stated for any float instance and any contents `V` the region is entered from.
-/
import proofs.«102349_j48601849922135_1_alg».proof.Proof.Gen.KernelIdeal.Launch
import proofs.«102349_j48601849922135_1_alg».proof.Proof.Gen.KernelIdeal.Skeleton
import proofs.«102349_j48601849922135_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not, the
    block index has not moved), for any proof data whose array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole-block rectangles the body loads and stores through. -/
abbrev rE : Rect S1x8x200x300 := Rect.unit (s := S1x8x200x300) ![0, 0, 0, 0] S1x8x200x300.size inb_S1x8x200x300_S1x8x200x300_0_0_0_0
abbrev rW : Rect S300x300 := Rect.unit (s := S300x300) ![0, 0] S300x300.size inb_S300x300_S300x300_0_0
abbrev rB : Rect S300 := Rect.unit (s := S300) ![0] S300.size inb_S300_S300_0
abbrev rI : Rect S1x8x300 := Rect.unit (s := S1x8x300) ![0, 0, 0] S1x8x300.size inb_S1x8x300_S1x8x300_0_0_0
abbrev rJ : Rect S1x200x300 := Rect.unit (s := S1x200x300) ![0, 0, 0] S1x200x300.size inb_S1x200x300_S1x200x300_0_0_0

/-- The output window's staging buffer after the body, from the five input blocks: its one store. -/
def out (x0 : Vec F S1x8x200x300 .f32) (x1 : Vec F S300x300 .f32) (x2 : Vec F S300 .f32) (x3 : Vec F S1x8x300 .f32) (x4 : Vec F S1x200x300 .f32) :
    Vec F S1x8x200x300 .f32 :=
  View.canon [⟨rE, k1_pay1 (View.ld x0 rE) (View.ld x1 rW) (View.ld x2 rB) (View.ld x3 rI) (View.ld x4 rJ)⟩]

/-- The one store covers the buffer. -/
theorem cover (p0 : Vec F S1x8x200x300 .f32) (y : S1x8x200x300.Idx) :
    ∃ pc ∈ ([⟨rE, p0⟩] : List (View.Piece (Elt F) S1x8x200x300 .f32)), y ∈ pc.1.set :=
  View.cover_of_tiled [⟨rE, p0⟩] S1x8x200x300.size (by rfl) y

set_option maxHeartbeats 1000000 in
/-- The body on whole staging memrefs, the inputs' at contents `x0 … x4` and the output's at anything, runs to the
    continuation holding the inputs' as they were and the output's at `out x0 … x4`. -/
theorem sound_kernel (c : Dev nD) (E : Set ℕ) (i : grid1.Coords) (arg2 : Memref sig .tc .vmem S1x8x200x300 .f32) (harg2 : arg2.IsWhole)
    (arg3 : Memref sig .tc .vmem S300x300 .f32) (harg3 : arg3.IsWhole) (arg4 : Memref sig .tc .vmem S300 .f32) (harg4 : arg4.IsWhole)
    (arg5 : Memref sig .tc .vmem S1x8x300 .f32) (harg5 : arg5.IsWhole) (arg6 : Memref sig .tc .vmem S1x200x300 .f32) (harg6 : arg6.IsWhole)
    (arg7 : Memref sig .tc .vmem S1x8x200x300 .f32) (harg7 : arg7.IsWhole)
    (x0 : Vec F S1x8x200x300 .f32) (x1 : Vec F S300x300 .f32) (x2 : Vec F S300 .f32) (x3 : Vec F S1x8x300 .f32) (x4 : Vec F S1x200x300 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out x0 x1 x2 x3 x4)) -∗ K ⟨⟩))
      ⊢ wp frame (wpE (defs₀ (F := F)) Variants.none c none) E
          (cc1__edge_kernel i arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The proof data of the region on core `c`: the arrays as the region finds them; after the body each input's buffer
    at its block and the output's at `out` of the input blocks; the invariant the scoped rest and the generator register,
    untouched; nothing owed; every input array held at the full share except the node projections, read by two
    windows, which each hold one half of it. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec1 c
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = out (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Edge

end
-- ==== Proof.IdealEdgeArrays.lean ====
/-
  The second region's arrays among the core's unscoped buffers. Five distinct buffers stand behind its six windows:
  the edge features, the transposed edge weights, the edge bias, the node projections (read by two windows) and the
  output. Entering the region, the full share of the node projections is split in two halves, one per window; leaving
  it, the halves are joined again. Every other array is held by its one window at the full share.
-/
import proofs.«102349_j48601849922135_1_alg».proof.Proof.IdealEdgeRegion

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v2) ↦{fullShare} W main_v2)
          ∗ (((c : Thread nD τ).loc main_arg3) ↦{fullShare} W main_arg3) ∗ (((c : Thread nD τ).loc main_v1) ↦{fullShare} W main_v1)
          ∗ (((c : Thread nD τ).loc main_v3) ↦{fullShare} W main_v3)) := by
  unfold Pipeline.arrBufs
  exact bigSep_eq_bigSepL_of_eq [main_arg1, main_v2, main_arg3, main_v1, main_v3] (by decide) (by decide) _

/-- The region's arrays at contents `G`, window by window, each a whole buffer at its window's share. -/
theorem arrays_eq (c : Dev nD) (G : (w : Fin cfg1.W) → Buf (Elt F) ((cfg1.win w).arr.view.loc (c : Thread nD τ))) :
    ((dat V c).arrays G : sProp 𝕄)
      = iprop((((c : Thread nD τ).loc main_arg1) ↦{fullShare} G 0) ∗ (((c : Thread nD τ).loc main_v2) ↦{fullShare} G 1)
          ∗ (((c : Thread nD τ).loc main_arg3) ↦{fullShare} G 2) ∗ (((c : Thread nD τ).loc main_v1) ↦{fullShare.left} G 3)
          ∗ (((c : Thread nD τ).loc main_v1) ↦{fullShare.right} G 4) ∗ (((c : Thread nD τ).loc main_v3) ↦{fullShare} G 5)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, (arr_whole1 5).set_eq_univ]
  rfl

/-- The core's unscoped buffers are the buffers behind the windows' arrays and the rest. -/
theorem bufs_split (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- ENTRY: the core's unscoped buffers at contents `W` are the region's arrays at `W`'s contents and the rest. -/
theorem arrays_of_bufs (c : Dev nD) (G : (w : Fin cfg1.W) → Buf (Elt F) ((cfg1.win w).arr.view.loc (c : Thread nD τ)))
    (hG : ∀ w, G w = V c (Pipeline.arrRef spec1 w)) :
    (unscopedBufs c (V c) : sProp 𝕄) ⊢ iprop((dat V c).arrays G ∗ Pipeline.unscopedRest (Ix := Unit) (Name := ℕ) (U := UR sig nD τ) (Lvl := ℕ) spec1 c (V c)) := by
  rw [bufs_split c (V c), arrBufs_eq, arrays_eq, hG 0, hG 1, hG 2, hG 3, hG 4, hG 5]
  iintro ⟨⟨H0, H1, H2, H34, H5⟩, Hr⟩
  ihave H' := (pointsTo_share (PosShare.mem_left_op_right fullShare)).1 $$ H34
  icases H' with ⟨H3, H4⟩
  isplitr [Hr]
  · isplitl [H0]; · iexact H0
    isplitl [H1]; · iexact H1
    isplitl [H2]; · iexact H2
    isplitl [H3]; · iexact H3
    isplitl [H4]; · iexact H4
    iexact H5
  iexact Hr

/-- EXIT: the region's arrays at contents `G` and the rest at `V` are the core's unscoped buffers at any contents `W'` that
    has each array's buffer at `G` and agrees with `V` off the arrays. -/
theorem bufs_of_arrays (c : Dev nD) (W' : (b : Ref sig .tc) → Buf (Elt F) ((c : Thread nD τ).loc b))
    (G : (w : Fin cfg1.W) → Buf (Elt F) ((cfg1.win w).arr.view.loc (c : Thread nD τ)))
    (hG : ∀ w, G w = W' (Pipeline.arrRef spec1 w))
    (hrest : ∀ b, b ∉ Finset.univ.image (Pipeline.arrRef spec1) → W' b = V c b) :
    iprop((dat V c).arrays G ∗ Pipeline.unscopedRest (Ix := Unit) (Name := ℕ) (U := UR sig nD τ) (Lvl := ℕ) spec1 c (V c)) ⊢ (unscopedBufs c W' : sProp 𝕄) := by
  rw [bufs_split c W', arrBufs_eq, arrays_eq, hG 0, hG 1, hG 2, hG 3, hG 4, hG 5]
  have hr : (Pipeline.unscopedRest (Ix := Unit) (Name := ℕ) (U := UR sig nD τ) (Lvl := ℕ) spec1 c W' : sProp 𝕄)
      = Pipeline.unscopedRest spec1 c (V c) := by
    unfold Pipeline.unscopedRest
    exact bigSep_congr fun b hb => by rw [hrest b (Finset.mem_sdiff.mp hb).2]
  rw [hr]
  iintro ⟨⟨H0, H1, H2, H3, H4, H5⟩, Hr⟩
  isplitr [Hr]
  · isplitl [H0]; · iexact H0
    isplitl [H1]; · iexact H1
    isplitl [H2]; · iexact H2
    isplitl [H3 H4]
    · iapply (pointsTo_share (PosShare.mem_left_op_right fullShare)).2
      isplitl [H3]; · iexact H3
      iexact H4
    iexact H5
  iexact Hr

end Cert.KernelIdeal.Edge

end
-- ==== Proof.IdealRun.lean ====
/-
  The whole run: @main is a transposition on the host, the node-projection region, another transposition, the
  edge-update region. The contents of every unscoped buffer are followed through the four items from the launch memory:
  a transposition writes its result, a region leaves each of its output arrays at what its write-backs fold to and every
  other buffer as it found it. The run ends with every unscoped buffer at the last of these contents; no item writes an
  argument, so each argument ends as launched, and the result array ends at the fold of the second region's write-backs.
-/
import proofs.«102349_j48601849922135_1_alg».proof.Proof.IdealNodeRegion
import proofs.«102349_j48601849922135_1_alg».proof.Proof.IdealEdgeArrays
import proofs.«102349_j48601849922135_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first transposition (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (Node.dat (V1 m) c).arrAt w cfg0.N
theorem W2_arr (c : Dev nD) (w : Fin cfg0.W) :
    W2 m c (Proc.devRef .tc (Pipeline.arrRef spec0 w)) = (Node.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Node.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second transposition (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit: its one output array at what the pipeline leaves, every other buffer as entered (its
    input arrays, two of them one buffer, are left as found). -/
def W4 (c : Dev nD) : Valuation τ sig (Elt F) :=
  Function.update (W3 m c) main_v3 ((Edge.dat (V3 m) c).arrAt 5 cfg1.N)
theorem W4_out (c : Dev nD) : W4 m c (Proc.devRef .tc main_v3) = (Edge.dat (V3 m) c).arrAt 5 cfg1.N := by
  unfold W4; exact Function.update_self ..
theorem W4_of_ne (c : Dev nD) (b : Ref sig .tc) (hb : b ≠ main_v3) :
    W4 m c (Proc.devRef .tc b) = W3 m c (Proc.devRef .tc b) := by
  unfold W4
  exact Function.update_of_ne (StableHlo.devRef_ne_of_ne hb : (Proc.devRef .tc b : DevRef τ sig) ≠ Proc.devRef .tc main_v3) _ _
abbrev V4 : (c : Dev nD) → (b : Ref sig .tc) → Buf (Elt F) ((c : Thread nD τ).loc b) := fun c b => W4 m c b
theorem hF1 (c : Dev nD) : ∀ w : Fin cfg1.W, (Edge.dat (V3 m) c).arrAt w cfg1.N = V4 m c (Pipeline.arrRef spec1 w)
  | ⟨0, _⟩ => (((Edge.dat (V3 m) c).arrAt_in 0 rfl _).trans (Edge.A_eq (V3 m) c 0)).trans (W4_of_ne m c main_arg1 (by decide)).symm
  | ⟨1, _⟩ => (((Edge.dat (V3 m) c).arrAt_in 1 rfl _).trans (Edge.A_eq (V3 m) c 1)).trans (W4_of_ne m c main_v2 (by decide)).symm
  | ⟨2, _⟩ => (((Edge.dat (V3 m) c).arrAt_in 2 rfl _).trans (Edge.A_eq (V3 m) c 2)).trans (W4_of_ne m c main_arg3 (by decide)).symm
  | ⟨3, _⟩ => (((Edge.dat (V3 m) c).arrAt_in 3 rfl _).trans (Edge.A_eq (V3 m) c 3)).trans (W4_of_ne m c main_v1 (by decide)).symm
  | ⟨4, _⟩ => (((Edge.dat (V3 m) c).arrAt_in 4 rfl _).trans (Edge.A_eq (V3 m) c 4)).trans (W4_of_ne m c main_v1 (by decide)).symm
  | ⟨5, _⟩ => (W4_out m c).symm
theorem hrest1 (c : Dev nD) : ∀ b, b ∉ Finset.univ.image (Pipeline.arrRef spec1) → V4 m c b = V3 m c b :=
  fun b hb => W4_of_ne m c b fun e => hb (Finset.mem_image.mpr ⟨5, Finset.mem_univ _, e.symm⟩)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((Node.dat (V1 m) c).arrAt_in 0 rfl _).trans (Node.A_eq (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 2).trans (((Node.dat (V1 m) c).arrAt_in 2 rfl _).trans (Node.A_eq (V1 m) c 2))
    _ = W0 m c (Proc.devRef .tc main_arg5) := StableHlo.after_of_writes_sub hostOps0 _ hostOps0_writes (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Node.dat (V1 m) c
  | ⟨1, _⟩ => fun c => Edge.dat (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Node.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W3`, left at `W4`. Two of its input
    windows read one array: the array's full share is split between them at the entry and joined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Edge.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Edge.arrays_of_bufs (V3 m) c ((pdats m 1 c).arrAt · 0) (fun w => Edge.A_eq (V3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Edge.bufs_of_arrays (V3 m) c (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Whole

end
-- ==== Proof.NodePayload.lean ====
/-
  The node kernel's stored value, read at one element.

  The body flattens the node features x : [4, 200, 300] to [800, 300], rounds both operands of the product to the
  narrow format (the identity on the extended reals), multiplies [800, 300] by [300, 300] into a zero accumulator,
  un-flattens the product to [4, 200, 300] and adds the bias, re-shaped to [1, 1, 300] and repeated along the first
  two axes. Row (b, n) of the flattened array is row 200·b + n, so at (b, n, g) the stored value is

      (Σ_h x[b, n, h] · w[h, g]) + bias[g].
-/
import proofs.«102349_j48601849922135_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.NodePayload

open Cert.KernelIdeal Idealize.ShloMosaic Idealize.ShloMosaic.ValueIdx

/-! ## Re-shapings between [a, b, c] and [m, c], where row (p, q) is row r = p·b + q -/

/-- An [a, b, c] array flattened to [m, c] reads, at (r, k) with r = p·b + q, the operand at (p, q, k). -/
theorem flatten_apply {α : Type} {a b c m : ℕ} (x : (⟨3, ![a, b, c]⟩ : Shape).Idx → α)
    (h : (⟨3, ![a, b, c]⟩ : Shape).ShapeCasts ⟨2, ![m, c]⟩) (p : Fin a) (q : Fin b) (k : Fin c) (r : Fin m)
    (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

/-- An [m, c] array un-flattened to [a, b, c] reads, at (p, q, k), the operand at (r, k) with r = p·b + q. -/
theorem unflatten_apply {α : Type} {a b c m : ℕ} (y : (⟨2, ![m, c]⟩ : Shape).Idx → α)
    (h : (⟨2, ![m, c]⟩ : Shape).ShapeCasts ⟨3, ![a, b, c]⟩) (p : Fin a) (q : Fin b) (k : Fin c) (r : Fin m)
    (hr : r.val = p.val * b + q.val) :
    shapeCast ⟨3, ![a, b, c]⟩ y h (ix3 p q k) = y (ix2 r k) :=
  shapeCast_apply y h _ _ (by
    rw [Shape.rowMajor_val_three, Shape.rowMajor_val_two]
    show r.val * c + k.val = (p.val * b + q.val) * c + k.val
    rw [hr])

/-! ## A vector of 300 entries re-shaped to [1, 1, 300] and repeated along two leading axes -/

/-- The repeated vector reads, at (p, q, k), its entry k. -/
theorem trailing_apply {α : Type} {a b : ℕ} (v : (⟨1, ![300]⟩ : Shape).Idx → α)
    (h1 : (⟨1, ![300]⟩ : Shape).ShapeCasts ⟨3, ![1, 1, 300]⟩)
    (h2 : (⟨3, ![1, 1, 300]⟩ : Shape).Broadcasts ⟨3, ![a, b, 300]⟩) (p : Fin a) (q : Fin b) (k : Fin 300) :
    broadcastTo ⟨3, ![a, b, 300]⟩ (shapeCast ⟨3, ![1, 1, 300]⟩ v h1) h2 (ix3 p q k) = v (ix1 k) :=
  (broadcastTo_apply _ h2 (ix3 p q k) (ix3 (0 : Fin 1) (0 : Fin 1) k) (fun d => match d with
    | ⟨0, _⟩ => by show 0 = if (1 : Nat) = 1 then 0 else _; rw [if_pos rfl]
    | ⟨1, _⟩ => by show 0 = if (1 : Nat) = 1 then 0 else _; rw [if_pos rfl]
    | ⟨2, _⟩ => by show k.val = if (300 : Nat) = 1 then 0 else k.val; rw [if_neg (by decide)])).trans
  (shapeCast_apply v h1 _ _ (by
    rw [Shape.rowMajor_val_one, Shape.rowMajor_val_three]
    show k.val = (0 * 1 + 0) * 300 + k.val
    omega))

/-! ## The product [800, 300] × [300, 300] into a zero accumulator -/

theorem lhs_row (j : S800x300.Idx) (q : dot_S800x300_S300x300_S800x300_1_0_0_1_n_n.contr.Idx) :
    (dot_S800x300_S300x300_S800x300_1_0_0_1_n_n.lhsIdx j q 0).val = (j 0).val := by
  unfold DotDims.lhsIdx
  rw [dif_neg (show ¬(0 : Fin S800x300.rank) ∈ dot_S800x300_S300x300_S800x300_1_0_0_1_n_n.lhsBatch by decide),
    dif_pos (show (0 : Fin S800x300.rank) ∈ dot_S800x300_S300x300_S800x300_1_0_0_1_n_n.lhsNonContracting by decide)]
  rfl

theorem rhs_col (j : S800x300.Idx) (q : dot_S800x300_S300x300_S800x300_1_0_0_1_n_n.contr.Idx) :
    (dot_S800x300_S300x300_S800x300_1_0_0_1_n_n.rhsIdx j q 1).val = (j 1).val := by
  unfold DotDims.rhsIdx
  rw [dif_neg (show ¬(1 : Fin S300x300.rank) ∈ dot_S800x300_S300x300_S800x300_1_0_0_1_n_n.rhsBatch by decide),
    dif_pos (show (1 : Fin S300x300.rank) ∈ dot_S800x300_S300x300_S800x300_1_0_0_1_n_n.rhsNonContracting by decide)]
  rfl

/-- The product at (r, g) is the sum over the contracted coordinate h of lhs[r, h] · rhs[h, g]. -/
theorem product_apply {φ₁ φ₂ : FTy} (lhs : FVec Ideal S800x300 φ₁) (rhs : FVec Ideal S300x300 φ₂) (r : Fin 800) (g : Fin 300) :
    matmul dot_S800x300_S300x300_S800x300_1_0_0_1_n_n none lhs rhs (constant (F := Ideal) S800x300 .f32 0x00000000#32) (ix2 r g)
      = ∑ h : Fin 300, lhs (ix2 r h) * rhs (ix2 h g) := by
  refine (Ideal.matmul_constant_zero_apply dot_S800x300_S300x300_S800x300_1_0_0_1_n_n none lhs rhs (ix2 r g)).trans ?_
  rw [← Equiv.sum_comp (contrEquiv1 dot_S800x300_S300x300_S800x300_1_0_0_1_n_n 300 rfl rfl).symm]
  refine Finset.sum_congr rfl fun k _ => ?_
  have hk := contrEquiv1_symm_val dot_S800x300_S300x300_S800x300_1_0_0_1_n_n 300 rfl rfl k
  have el : dot_S800x300_S300x300_S800x300_1_0_0_1_n_n.lhsIdx (ix2 r g)
      ((contrEquiv1 dot_S800x300_S300x300_S800x300_1_0_0_1_n_n 300 rfl rfl).symm k) = ix2 r k :=
    funext fun a => Fin.ext (by
      match a with
      | ⟨0, _⟩ => exact lhs_row _ _
      | ⟨1, _⟩ => exact (dot_S800x300_S300x300_S800x300_1_0_0_1_n_n.lhsIdx_val_of_single rfl _ _).trans hk)
  have er : dot_S800x300_S300x300_S800x300_1_0_0_1_n_n.rhsIdx (ix2 r g)
      ((contrEquiv1 dot_S800x300_S300x300_S800x300_1_0_0_1_n_n 300 rfl rfl).symm k) = ix2 k g :=
    funext fun a => Fin.ext (by
      match a with
      | ⟨0, _⟩ => exact (dot_S800x300_S300x300_S800x300_1_0_0_1_n_n.rhsIdx_val_of_single rfl _ _).trans hk
      | ⟨1, _⟩ => exact rhs_col _ _)
  rw [el, er]

/-! ## The stored value -/

/-- The node kernel's stored value at (b, n, g). -/
theorem k0_pay1_apply (v0 : Vec Ideal S4x200x300 .f32) (v1 : Vec Ideal S300x300 .f32) (v4 : Vec Ideal S300 .f32)
    (b : Fin 4) (n : Fin 200) (g : Fin 300) :
    Cert.KernelIdeal.Gen.k0_pay1 (F := Ideal) v0 v1 v4 (ix3 b n g)
      = (∑ h : Fin 300, v0 (ix3 b n h) * v1 (ix2 h g)) + v4 (ix1 g) := by
  unfold Cert.KernelIdeal.Gen.k0_pay1
  refine (addf_apply _ _ _).trans ?_
  refine congrArg₂ (· + ·) ?_ (trailing_apply v4 _ _ b n g)
  have hr : (⟨b.val * 200 + n.val, by omega⟩ : Fin 800).val = b.val * 200 + n.val := rfl
  refine (unflatten_apply _ _ b n g ⟨b.val * 200 + n.val, by omega⟩ hr).trans ?_
  refine (product_apply _ _ _ g).trans ?_
  refine Finset.sum_congr rfl fun h _ => ?_
  have e1 : shapeCast S800x300 v0 Gen.shapeCasts_S4x200x300_S800x300 (ix2 ⟨b.val * 200 + n.val, by omega⟩ h) = v0 (ix3 b n h) :=
    flatten_apply v0 _ b n h _ hr
  have e2 : shapeCast S300x300 v1 Gen.shapeCasts_S300x300_S300x300 (ix2 h g) = v1 (ix2 h g) :=
    congrFun (shapeCast_self v1 _) _
  exact congrArg₂ (· * ·) e1 e2

end Cert.NodePayload

end
-- ==== Proof.EdgePayload.lean ====
/-
  The edge kernel's stored value, read at one element of its block [1, 8, 200, 300].

  The body drops the block's leading unit axis, flattens the edge features e : [8, 200, 300] to [1600, 300], rounds both
  operands of the product to the narrow format (the identity on the extended reals), multiplies [1600, 300] by
  [300, 300] into a zero accumulator and un-flattens the product to [8, 200, 300]. To it are added, in this order:
  the bias, re-shaped to [1, 1, 300] and repeated along the first two axes; the source nodes' projection [8, 300],
  re-shaped to [8, 1, 300] and repeated along the middle axis; the target nodes' projection [200, 300], re-shaped to
  [1, 200, 300] and repeated along the first axis. The leading unit axis is then put back. Row (i, j) of the flattened
  array is row 200·i + j, so at (0, i, j, g) the stored value is

      (((Σ_h e[0, i, j, h] · w[h, g]) + bias[g]) + src[0, i, g]) + tgt[0, j, g].
-/
import proofs.«102349_j48601849922135_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.EdgePayload

open Cert.KernelIdeal Idealize.ShloMosaic Idealize.ShloMosaic.ValueIdx

/-! ## Re-shapings between [a, b, c] and [m, c], where row (p, q) is row r = p·b + q -/

/-- An [a, b, c] array flattened to [m, c] reads, at (r, k) with r = p·b + q, the operand at (p, q, k). -/
theorem flatten_apply {α : Type} {a b c m : ℕ} (x : (⟨3, ![a, b, c]⟩ : Shape).Idx → α)
    (h : (⟨3, ![a, b, c]⟩ : Shape).ShapeCasts ⟨2, ![m, c]⟩) (p : Fin a) (q : Fin b) (k : Fin c) (r : Fin m)
    (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

/-- An [m, c] array un-flattened to [a, b, c] reads, at (p, q, k), the operand at (r, k) with r = p·b + q. -/
theorem unflatten_apply {α : Type} {a b c m : ℕ} (y : (⟨2, ![m, c]⟩ : Shape).Idx → α)
    (h : (⟨2, ![m, c]⟩ : Shape).ShapeCasts ⟨3, ![a, b, c]⟩) (p : Fin a) (q : Fin b) (k : Fin c) (r : Fin m)
    (hr : r.val = p.val * b + q.val) :
    shapeCast ⟨3, ![a, b, c]⟩ y h (ix3 p q k) = y (ix2 r k) :=
  shapeCast_apply y h _ _ (by
    rw [Shape.rowMajor_val_three, Shape.rowMajor_val_two]
    show r.val * c + k.val = (p.val * b + q.val) * c + k.val
    rw [hr])

/-! ## The three added terms: a re-shaping that inserts unit axes, then a repetition along them -/

/-- A vector of 300 entries re-shaped to [1, 1, 300] and repeated along two leading axes reads, at (p, q, k), its
    entry k. -/
theorem trailing_apply {α : Type} {a b : ℕ} (v : (⟨1, ![300]⟩ : Shape).Idx → α)
    (h1 : (⟨1, ![300]⟩ : Shape).ShapeCasts ⟨3, ![1, 1, 300]⟩)
    (h2 : (⟨3, ![1, 1, 300]⟩ : Shape).Broadcasts ⟨3, ![a, b, 300]⟩) (p : Fin a) (q : Fin b) (k : Fin 300) :
    broadcastTo ⟨3, ![a, b, 300]⟩ (shapeCast ⟨3, ![1, 1, 300]⟩ v h1) h2 (ix3 p q k) = v (ix1 k) :=
  (broadcastTo_apply _ h2 (ix3 p q k) (ix3 (0 : Fin 1) (0 : Fin 1) k) (fun d => match d with
    | ⟨0, _⟩ => by show 0 = if (1 : Nat) = 1 then 0 else _; rw [if_pos rfl]
    | ⟨1, _⟩ => by show 0 = if (1 : Nat) = 1 then 0 else _; rw [if_pos rfl]
    | ⟨2, _⟩ => by show k.val = if (300 : Nat) = 1 then 0 else k.val; rw [if_neg (by decide)])).trans
  (shapeCast_apply v h1 _ _ (by
    rw [Shape.rowMajor_val_one, Shape.rowMajor_val_three]
    show k.val = (0 * 1 + 0) * 300 + k.val
    omega))

/-- An [8, 300] array re-shaped to [8, 1, 300] and repeated along the middle axis reads, at (p, q, k), the operand at
    (p, k). -/
theorem middle_apply {α : Type} (x : (⟨2, ![8, 300]⟩ : Shape).Idx → α)
    (h1 : (⟨2, ![8, 300]⟩ : Shape).ShapeCasts ⟨3, ![8, 1, 300]⟩)
    (h2 : (⟨3, ![8, 1, 300]⟩ : Shape).Broadcasts ⟨3, ![8, 200, 300]⟩) (p : Fin 8) (q : Fin 200) (k : Fin 300) :
    broadcastTo ⟨3, ![8, 200, 300]⟩ (shapeCast ⟨3, ![8, 1, 300]⟩ x h1) h2 (ix3 p q k) = x (ix2 p k) :=
  (broadcastTo_apply _ h2 (ix3 p q k) (ix3 p (0 : Fin 1) k) (fun d => match d with
    | ⟨0, _⟩ => by show p.val = if (8 : Nat) = 1 then 0 else p.val; rw [if_neg (by decide)]
    | ⟨1, _⟩ => by show 0 = if (1 : Nat) = 1 then 0 else _; rw [if_pos rfl]
    | ⟨2, _⟩ => by show k.val = if (300 : Nat) = 1 then 0 else k.val; rw [if_neg (by decide)])).trans
  (shapeCast_apply x h1 _ _ (by
    rw [Shape.rowMajor_val_two, Shape.rowMajor_val_three]
    show p.val * 300 + k.val = (p.val * 1 + 0) * 300 + k.val
    omega))

/-- A [200, 300] array re-shaped to [1, 200, 300] and repeated along the first axis reads, at (p, q, k), the operand
    at (q, k). -/
theorem leading_apply {α : Type} (x : (⟨2, ![200, 300]⟩ : Shape).Idx → α)
    (h1 : (⟨2, ![200, 300]⟩ : Shape).ShapeCasts ⟨3, ![1, 200, 300]⟩)
    (h2 : (⟨3, ![1, 200, 300]⟩ : Shape).Broadcasts ⟨3, ![8, 200, 300]⟩) (p : Fin 8) (q : Fin 200) (k : Fin 300) :
    broadcastTo ⟨3, ![8, 200, 300]⟩ (shapeCast ⟨3, ![1, 200, 300]⟩ x h1) h2 (ix3 p q k) = x (ix2 q k) :=
  (broadcastTo_apply _ h2 (ix3 p q k) (ix3 (0 : Fin 1) q k) (fun d => match d with
    | ⟨0, _⟩ => by show 0 = if (1 : Nat) = 1 then 0 else _; rw [if_pos rfl]
    | ⟨1, _⟩ => by show q.val = if (200 : Nat) = 1 then 0 else q.val; rw [if_neg (by decide)]
    | ⟨2, _⟩ => by show k.val = if (300 : Nat) = 1 then 0 else k.val; rw [if_neg (by decide)])).trans
  (shapeCast_ab_1ab_apply x h1 (0 : Fin 1) q k)

/-! ## The product [1600, 300] × [300, 300] into a zero accumulator -/

theorem lhs_row (j : S1600x300.Idx) (q : dot_S1600x300_S300x300_S1600x300_1_0_0_1_n_n.contr.Idx) :
    (dot_S1600x300_S300x300_S1600x300_1_0_0_1_n_n.lhsIdx j q 0).val = (j 0).val := by
  unfold DotDims.lhsIdx
  rw [dif_neg (show ¬(0 : Fin S1600x300.rank) ∈ dot_S1600x300_S300x300_S1600x300_1_0_0_1_n_n.lhsBatch by decide),
    dif_pos (show (0 : Fin S1600x300.rank) ∈ dot_S1600x300_S300x300_S1600x300_1_0_0_1_n_n.lhsNonContracting by decide)]
  rfl

theorem rhs_col (j : S1600x300.Idx) (q : dot_S1600x300_S300x300_S1600x300_1_0_0_1_n_n.contr.Idx) :
    (dot_S1600x300_S300x300_S1600x300_1_0_0_1_n_n.rhsIdx j q 1).val = (j 1).val := by
  unfold DotDims.rhsIdx
  rw [dif_neg (show ¬(1 : Fin S300x300.rank) ∈ dot_S1600x300_S300x300_S1600x300_1_0_0_1_n_n.rhsBatch by decide),
    dif_pos (show (1 : Fin S300x300.rank) ∈ dot_S1600x300_S300x300_S1600x300_1_0_0_1_n_n.rhsNonContracting by decide)]
  rfl

/-- The product at (r, g) is the sum over the contracted coordinate h of lhs[r, h] · rhs[h, g]. -/
theorem product_apply {φ₁ φ₂ : FTy} (lhs : FVec Ideal S1600x300 φ₁) (rhs : FVec Ideal S300x300 φ₂) (r : Fin 1600) (g : Fin 300) :
    matmul dot_S1600x300_S300x300_S1600x300_1_0_0_1_n_n none lhs rhs (constant (F := Ideal) S1600x300 .f32 0x00000000#32) (ix2 r g)
      = ∑ h : Fin 300, lhs (ix2 r h) * rhs (ix2 h g) := by
  refine (Ideal.matmul_constant_zero_apply dot_S1600x300_S300x300_S1600x300_1_0_0_1_n_n none lhs rhs (ix2 r g)).trans ?_
  rw [← Equiv.sum_comp (contrEquiv1 dot_S1600x300_S300x300_S1600x300_1_0_0_1_n_n 300 rfl rfl).symm]
  refine Finset.sum_congr rfl fun k _ => ?_
  have hk := contrEquiv1_symm_val dot_S1600x300_S300x300_S1600x300_1_0_0_1_n_n 300 rfl rfl k
  have el : dot_S1600x300_S300x300_S1600x300_1_0_0_1_n_n.lhsIdx (ix2 r g)
      ((contrEquiv1 dot_S1600x300_S300x300_S1600x300_1_0_0_1_n_n 300 rfl rfl).symm k) = ix2 r k :=
    funext fun a => Fin.ext (by
      match a with
      | ⟨0, _⟩ => exact lhs_row _ _
      | ⟨1, _⟩ => exact (dot_S1600x300_S300x300_S1600x300_1_0_0_1_n_n.lhsIdx_val_of_single rfl _ _).trans hk)
  have er : dot_S1600x300_S300x300_S1600x300_1_0_0_1_n_n.rhsIdx (ix2 r g)
      ((contrEquiv1 dot_S1600x300_S300x300_S1600x300_1_0_0_1_n_n 300 rfl rfl).symm k) = ix2 k g :=
    funext fun a => Fin.ext (by
      match a with
      | ⟨0, _⟩ => exact (dot_S1600x300_S300x300_S1600x300_1_0_0_1_n_n.rhsIdx_val_of_single rfl _ _).trans hk
      | ⟨1, _⟩ => exact rhs_col _ _)
  rw [el, er]

/-! ## The stored value -/

/-- The edge kernel's stored value at (0, i, j, g). -/
theorem k1_pay1_apply (v0 : Vec Ideal S1x8x200x300 .f32) (v2 : Vec Ideal S300x300 .f32) (v5 : Vec Ideal S300 .f32)
    (v6 : Vec Ideal S1x8x300 .f32) (v8 : Vec Ideal S1x200x300 .f32) (i : Fin 8) (j : Fin 200) (g : Fin 300) :
    Cert.KernelIdeal.Gen.k1_pay1 (F := Ideal) v0 v2 v5 v6 v8 (ix4 (0 : Fin 1) i j g)
      = (((∑ h : Fin 300, v0 (ix4 (0 : Fin 1) i j h) * v2 (ix2 h g)) + v5 (ix1 g)) + v6 (ix3 (0 : Fin 1) i g))
          + v8 (ix3 (0 : Fin 1) j g) := by
  unfold Cert.KernelIdeal.Gen.k1_pay1
  refine (shapeCast_abc_1abc_apply _ _ (0 : Fin 1) i j g).trans ?_
  refine (addf_apply _ _ _).trans ?_
  refine congrArg₂ (· + ·) ?_ ((leading_apply _ _ _ i j g).trans (shapeCast_1ab_ab_apply v8 _ j g))
  refine (addf_apply _ _ _).trans ?_
  refine congrArg₂ (· + ·) ?_ ((middle_apply _ _ _ i j g).trans (shapeCast_1ab_ab_apply v6 _ i g))
  refine (addf_apply _ _ _).trans ?_
  refine congrArg₂ (· + ·) ?_ (trailing_apply v5 _ _ i j g)
  have hr : (⟨i.val * 200 + j.val, by omega⟩ : Fin 1600).val = i.val * 200 + j.val := rfl
  refine (unflatten_apply _ _ i j g ⟨i.val * 200 + j.val, by omega⟩ hr).trans ?_
  refine (product_apply _ _ _ g).trans ?_
  refine Finset.sum_congr rfl fun h _ => ?_
  have e1 : shapeCast S1600x300 (shapeCast S8x200x300 v0 Gen.shapeCasts_S1x8x200x300_S8x200x300)
      Gen.shapeCasts_S8x200x300_S1600x300 (ix2 ⟨i.val * 200 + j.val, by omega⟩ h) = v0 (ix4 (0 : Fin 1) i j h) :=
    (flatten_apply _ _ i j h _ hr).trans (shapeCast_1abc_abc_apply v0 _ i j h)
  have e2 : shapeCast S300x300 v2 Gen.shapeCasts_S300x300_S300x300 (ix2 h g) = v2 (ix2 h g) :=
    congrFun (shapeCast_self v2 _) _
  exact congrArg₂ (· * ·) e1 e2

end Cert.EdgePayload

end
-- ==== Proof.EdgeSpec.lean ====
/-
  The edge update of a message-passing layer, as one function of its six arrays over the extended reals.

  For node features `x` (4 graphs × 200 nodes × 300 channels), edge features `e` (4 × 200 × 200 × 300), and two affine maps
  with weights `Uw`, `Vw` (300 × 300, stored output channel first) and biases `Ub`, `Vb`:

    node b n g   = (Σ_h x[b,n,h] · Vw[g,h]) + Vb[g]
    edge b i j g = (((Σ_h e[b,i,j,h] · Uw[g,h]) + Ub[g]) + node b i g) + node b j g

  The grouping of the three additions is the one both programs use, so no law of the extended reals beyond the
  commutativity of a product inside the sums is ever needed, and none that needs finiteness.
-/
import Idealize.ShloMosaic.PureOps.Ideal
import Idealize.ShloMosaic.Lib.ValueIdx

noncomputable section

namespace Cert.EdgeSpec

open Idealize.ShloMosaic Idealize.ShloMosaic.ValueIdx

/-- The node projection at graph `b`, node `n`, output channel `g`: row `n` of `x` against row `g` of `Vw`, plus the bias. -/
def nodeAt (x : FVec Ideal ⟨3, ![4, 200, 300]⟩ .f32) (Vw : FVec Ideal ⟨2, ![300, 300]⟩ .f32) (Vb : FVec Ideal ⟨1, ![300]⟩ .f32)
    (b : Fin 4) (n : Fin 200) (g : Fin 300) : EReal :=
  (∑ h : Fin 300, x (ix3 b n h) * Vw (ix2 g h)) + Vb (ix1 g)

/-- The updated edge feature at graph `b`, edge `(i, j)`, output channel `g`: the edge's own projection plus its bias, then
    the projection of its source node, then that of its target node, added in this order. -/
def edgeAt (x : FVec Ideal ⟨3, ![4, 200, 300]⟩ .f32) (e : FVec Ideal ⟨4, ![4, 200, 200, 300]⟩ .f32)
    (Uw : FVec Ideal ⟨2, ![300, 300]⟩ .f32) (Ub : FVec Ideal ⟨1, ![300]⟩ .f32)
    (Vw : FVec Ideal ⟨2, ![300, 300]⟩ .f32) (Vb : FVec Ideal ⟨1, ![300]⟩ .f32)
    (b : Fin 4) (i j : Fin 200) (g : Fin 300) : EReal :=
  (((∑ h : Fin 300, e (ix4 b i j h) * Uw (ix2 g h)) + Ub (ix1 g)) + nodeAt x Vw Vb b i g) + nodeAt x Vw Vb b j g

/-- The node projections as an array. -/
def node (x : FVec Ideal ⟨3, ![4, 200, 300]⟩ .f32) (Vw : FVec Ideal ⟨2, ![300, 300]⟩ .f32) (Vb : FVec Ideal ⟨1, ![300]⟩ .f32) :
    FVec Ideal ⟨3, ![4, 200, 300]⟩ .f32 :=
  fun i => nodeAt x Vw Vb (i 0) (i 1) (i 2)

/-- The updated edge features as an array. -/
def edge (x : FVec Ideal ⟨3, ![4, 200, 300]⟩ .f32) (e : FVec Ideal ⟨4, ![4, 200, 200, 300]⟩ .f32)
    (Uw : FVec Ideal ⟨2, ![300, 300]⟩ .f32) (Ub : FVec Ideal ⟨1, ![300]⟩ .f32)
    (Vw : FVec Ideal ⟨2, ![300, 300]⟩ .f32) (Vb : FVec Ideal ⟨1, ![300]⟩ .f32) :
    FVec Ideal ⟨4, ![4, 200, 200, 300]⟩ .f32 :=
  fun i => edgeAt x e Uw Ub Vw Vb (i 0) (i 1) (i 2) (i 3)

end Cert.EdgeSpec

end
-- ==== Proof.IdealResult.lean ====
/-
  The two regions' output arrays after the run, as the specification's functions of the launch memory.

  First region (one grid point; every window's block is its whole array). The output block is the whole array, and
  its value at (b, n, g) is (Σ_h x[b, n, h] · T[h, g]) + Vb[g], where T is the array the first transposition wrote:
  T[h, g] = Vw[g, h]. That is the specification's node projection.

  Second region (4 × 25 grid points; point t has coordinates (t / 25, t % 25)). At point (b, r) the edge-feature window
  and the output window hold rows 8r … 8r + 7 of graph b (array index (b, 8r + y, q, g) for block index (0, y, q, g)),
  the source-node window rows 8r … 8r + 7 of graph b's node projections, the target-node window all 200 rows of
  graph b's node projections; the weights (transposed by the second transposition) and the bias are whole. The node
  projections are what the first region left. So what point t writes back is its block of ONE function of the
  arrays, the specification's edge update; the blocks of the 100 points tile the output array (index (b, p, q, g)
  lies in the block of the point with coordinates (b, p / 8)), hence the array ends holding that function.
-/
import proofs.«102349_j48601849922135_1_alg».proof.Proof.IdealRun
import proofs.«102349_j48601849922135_1_alg».proof.Proof.NodePayload
import proofs.«102349_j48601849922135_1_alg».proof.Proof.EdgePayload
import proofs.«102349_j48601849922135_1_alg».proof.Proof.EdgeSpec
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, at each rank. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The first region -/

/-- The node projection with the weights stored contracted axis first: (Σ_h X[b, n, h] · T[h, g]) + B[g]. -/
def nodeG (X : Vec Ideal S4x200x300 .f32) (T : Vec Ideal S300x300 .f32) (B : Vec Ideal S300 .f32) : Vec Ideal S4x200x300 .f32 :=
  fun i => (∑ h : Fin 300, X (ix3 (i 0) (i 1) h) * T (ix2 h (i 2))) + B (ix1 (i 2))

/-- The first region's stored value at any index is that function of the three loaded arrays. -/
theorem node_point (X : Vec Ideal S4x200x300 .f32) (T : Vec Ideal S300x300 .f32) (B : Vec Ideal S300 .f32) (j : S4x200x300.Idx) :
    k0_pay1 (F := Ideal) X T B j = nodeG X T B j :=
  (congrArg (k0_pay1 (F := Ideal) X T B) (eq_ix3 j)).trans (Cert.NodePayload.k0_pay1_apply X T B (j 0) (j 1) (j 2))

/-- Each window of the first region reads its whole array: its block index is zero on every axis. -/
theorem iblk0 (c : Dev nD) (t : Fin cfg0.N) : Node.iblk V c 0 t = V c main_arg0 := by
  obtain rfl := fin_N0 t
  unfold Node.iblk
  have hz' : (fun a => win0_0.index t0_0 a * main_arg0.ty.shape.size a) = fun _ => 0 := funext fun a => by fin_cases a <;> decide
  exact Memref.read_access_unit_zero (Elt Ideal) main_arg0 hz' (fun a => by rw [congrFun hz' a]; simp) (V c main_arg0)

theorem iblk1 (c : Dev nD) (t : Fin cfg0.N) : Node.iblk V c 1 t = V c main_v0 := by
  obtain rfl := fin_N0 t
  unfold Node.iblk
  have hz' : (fun a => win0_1.index t0_0 a * main_v0.ty.shape.size a) = fun _ => 0 := funext fun a => by fin_cases a <;> decide
  exact Memref.read_access_unit_zero (Elt Ideal) main_v0 hz' (fun a => by rw [congrFun hz' a]; simp) (V c main_v0)

theorem iblk2 (c : Dev nD) (t : Fin cfg0.N) : Node.iblk V c 2 t = V c main_arg5 := by
  obtain rfl := fin_N0 t
  unfold Node.iblk
  have hz' : (fun a => win0_2.index t0_0 a * main_arg5.ty.shape.size a) = fun _ => 0 := funext fun a => by fin_cases a <;> decide
  exact Memref.read_access_unit_zero (Elt Ideal) main_arg5 hz' (fun a => by rw [congrFun hz' a]; simp) (V c main_arg5)

/-- What the one point of the first region writes back is the (whole) block of `nodeG` of the arrays as the region finds them. -/
theorem node_flushed (c : Dev nD) (t : Fin cfg0.N) :
    (Node.dat V c).flushed 3 t = ((cfg0.win 3).blk t).view.read (Elt Ideal) (nodeG (V c main_arg0) (V c main_v0) (V c main_arg5)) := by
  show (cfg0.win 3).cut (grid0.coords t) ((Node.dat V c).after 3 t) = _
  rw [Node.after_3]
  unfold Node.out
  rw [View.canon_unit_zero hz3]
  simp only [View.ld_unit_zero (S := S4x200x300) hz3, View.ld_unit_zero (S := S300x300) hz2, View.ld_unit_zero (S := S300) hz1]
  rw [iblk0 V c t, iblk1 V c t, iblk2 V c t]
  obtain rfl := fin_N0 t
  have hz' : (fun a => win0_3.index t0_0 a * main_v1.ty.shape.size a) = fun _ => 0 := funext fun a => by fin_cases a <;> decide
  refine Eq.trans ?_ (Memref.read_access_unit_zero (Elt Ideal) main_v1 hz' (fun a => by rw [congrFun hz' a]; simp) _).symm
  funext j
  exact node_point _ _ _ j

/-- The one point's block covers the output array, so the array ends holding `nodeG` of the entry arrays. -/
theorem node_final_of (c : Dev nD) :
    (Node.dat V c).arrAt 3 cfg0.N = nodeG (V c main_arg0) (V c main_v0) (V c main_arg5) :=
  (Node.dat V c).arrAt_eq_of_cover 3 _ (fun t _ => node_flushed V c t) fun i =>
    ⟨t0_0, flush0_3 t0_0, by
      show i ∈ ((View.whole main_v1).slice (win0_3.rect t0_0)).set
      rw [View.set_slice_whole, Rect.mem_set_unit]
      intro a
      have h0 : (i 0 : Nat) < 4 := (i 0).isLt
      have h1 : (i 1 : Nat) < 200 := (i 1).isLt
      have h2 : (i 2 : Nat) < 300 := (i 2).isLt
      match a with
      | ⟨0, _⟩ =>
        show win0_3.index t0_0 0 * win0_3.size 0 ≤ (i 0 : Nat) ∧ (i 0 : Nat) < win0_3.index t0_0 0 * win0_3.size 0 + win0_3.xsize (grid0.coords t0_0) 0
        rw [show win0_3.index t0_0 0 * win0_3.size 0 = 0 from by decide +kernel, show win0_3.xsize (grid0.coords t0_0) 0 = 4 from by decide +kernel]; omega
      | ⟨1, _⟩ =>
        show win0_3.index t0_0 1 * win0_3.size 1 ≤ (i 1 : Nat) ∧ (i 1 : Nat) < win0_3.index t0_0 1 * win0_3.size 1 + win0_3.xsize (grid0.coords t0_0) 1
        rw [show win0_3.index t0_0 1 * win0_3.size 1 = 0 from by decide +kernel, show win0_3.xsize (grid0.coords t0_0) 1 = 200 from by decide +kernel]; omega
      | ⟨2, _⟩ =>
        show win0_3.index t0_0 2 * win0_3.size 2 ≤ (i 2 : Nat) ∧ (i 2 : Nat) < win0_3.index t0_0 2 * win0_3.size 2 + win0_3.xsize (grid0.coords t0_0) 2
        rw [show win0_3.index t0_0 2 * win0_3.size 2 = 0 from by decide +kernel, show win0_3.xsize (grid0.coords t0_0) 2 = 300 from by decide +kernel]; omega⟩

/-! ## The arrays as the first region finds them -/

variable (m : (ℓ : Loc nD τ sig) → Buf (Elt Ideal) ℓ)

/-- The first transposition writes neither the node features nor the bias … -/
theorem V1_arg0 (c : Dev nD) : Whole.V1 m c main_arg0 = m ((c.tc : Thread nD τ).loc main_arg0) :=
  StableHlo.after_of_writes_sub hostOps0 _ hostOps0_writes (by decide)
theorem V1_arg5 (c : Dev nD) : Whole.V1 m c main_arg5 = m ((c.tc : Thread nD τ).loc main_arg5) :=
  StableHlo.after_of_writes_sub hostOps0 _ hostOps0_writes (by decide)
/-- … and leaves the transposed node weights in its result. -/
theorem V1_v0 (c : Dev nD) : Whole.V1 m c main_v0
    = transpose S300x300 [1, 0] (m ((c.tc : Thread nD τ).loc main_arg4) : Vec Ideal S300x300 .f32) transposes_S300x300_S300x300_1_0 := by
  show StableHlo.after hostOps0 _ (Proc.devRef .tc main_v0) = _
  after_results

/-- With T the transpose of Vw, T[h, g] = Vw[g, h]: `nodeG` is the specification's node projection. -/
theorem nodeG_transpose (X : Vec Ideal S4x200x300 .f32) (Wt : Vec Ideal S300x300 .f32) (B : Vec Ideal S300 .f32)
    (h : S300x300.Transposes [1, 0] S300x300) :
    nodeG X (transpose S300x300 [1, 0] Wt h) B = Cert.EdgeSpec.node X Wt B := by
  funext i
  unfold nodeG Cert.EdgeSpec.node Cert.EdgeSpec.nodeAt
  refine congrArg (· + B (ix1 (i 2))) (Finset.sum_congr rfl fun k _ => ?_)
  exact congrArg (X (ix3 (i 0) (i 1) k) * ·) (transpose_ix2_apply Wt h k (i 2))

/-- THE FIRST REGION'S OUTPUT ARRAY after the run is the specification's node projection of the launch memory. -/
theorem node_final (c : Dev nD) : (Cert.KernelIdeal.Node.dat (F := Ideal) (Cert.KernelIdeal.Whole.V1 m) c).arrAt 3 cfg0.N
      = Cert.EdgeSpec.node (m ((c.tc : Thread nD τ).loc main_arg0)) (m ((c.tc : Thread nD τ).loc main_arg4)) (m ((c.tc : Thread nD τ).loc main_arg5)) := by
  rw [node_final_of (Whole.V1 m) c, V1_arg0 m c, V1_arg5 m c, V1_v0 m c]
  exact nodeG_transpose _ _ _ _

/-! ## The second region -/

/-- The edge update with the edge weights stored contracted axis first and the node projections given as an array N:
    (((Σ_h E[b, p, q, h] · T[h, g]) + B[g]) + N[b, p, g]) + N[b, q, g]. -/
def edgeAt' (E : Vec Ideal S4x200x200x300 .f32) (T : Vec Ideal S300x300 .f32) (B : Vec Ideal S300 .f32) (N : Vec Ideal S4x200x300 .f32)
    (b : Fin 4) (p q : Fin 200) (g : Fin 300) : EReal :=
  (((∑ h : Fin 300, E (ix4 b p q h) * T (ix2 h g)) + B (ix1 g)) + N (ix3 b p g)) + N (ix3 b q g)

/-- The same as an array. -/
def edgeG (E : Vec Ideal S4x200x200x300 .f32) (T : Vec Ideal S300x300 .f32) (B : Vec Ideal S300 .f32) (N : Vec Ideal S4x200x300 .f32) :
    Vec Ideal S4x200x200x300 .f32 :=
  fun i => edgeAt' E T B N (i 0) (i 1) (i 2) (i 3)

/-- The printed index maps of the second region's six windows, decided over the grid: point t has coordinates
    (t / 25, t % 25); the edge-feature, source-node and output windows move with both, the target-node window with
    the first, the weights and the bias with neither. -/
theorem edge_idx : ∀ t : Fin cfg1.N,
    win1_0.index t (0 : Fin 4) = t.val / 25 ∧ win1_0.index t (1 : Fin 4) = t.val % 25 ∧ win1_0.index t (2 : Fin 4) = 0 ∧ win1_0.index t (3 : Fin 4) = 0
    ∧ win1_1.index t (0 : Fin 2) = 0 ∧ win1_1.index t (1 : Fin 2) = 0
    ∧ win1_2.index t (0 : Fin 1) = 0
    ∧ win1_3.index t (0 : Fin 3) = t.val / 25 ∧ win1_3.index t (1 : Fin 3) = t.val % 25 ∧ win1_3.index t (2 : Fin 3) = 0
    ∧ win1_4.index t (0 : Fin 3) = t.val / 25 ∧ win1_4.index t (1 : Fin 3) = 0 ∧ win1_4.index t (2 : Fin 3) = 0
    ∧ win1_5.index t (0 : Fin 4) = t.val / 25 ∧ win1_5.index t (1 : Fin 4) = t.val % 25 ∧ win1_5.index t (2 : Fin 4) = 0 ∧ win1_5.index t (3 : Fin 4) = 0 :=
  (by decide +kernel : ∀ t : Fin grid1.N, _)

/-- The weights' and the bias's windows read their whole arrays at every point. -/
theorem iblkE1 (c : Dev nD) (t : Fin cfg1.N) : Edge.iblk V c 1 t = V c main_v2 := by
  obtain ⟨-, -, -, -, e0, e1, -⟩ := edge_idx t
  unfold Edge.iblk
  have hz' : (fun a => win1_1.index t a * main_v2.ty.shape.size a) = fun _ => 0 := funext fun a => by
    match a with
    | ⟨0, _⟩ => show win1_1.index t (0 : Fin 2) * 300 = 0; rw [e0]
    | ⟨1, _⟩ => show win1_1.index t (1 : Fin 2) * 300 = 0; rw [e1]
  exact Memref.read_access_unit_zero (Elt Ideal) main_v2 hz' (fun a => by rw [congrFun hz' a]; simp) (V c main_v2)

theorem iblkE2 (c : Dev nD) (t : Fin cfg1.N) : Edge.iblk V c 2 t = V c main_arg3 := by
  obtain ⟨-, -, -, -, -, -, e0, -⟩ := edge_idx t
  unfold Edge.iblk
  have hz' : (fun a => win1_2.index t a * main_arg3.ty.shape.size a) = fun _ => 0 := funext fun a => by
    match a with
    | ⟨0, _⟩ => show win1_2.index t (0 : Fin 1) * 300 = 0; rw [e0]
  exact Memref.read_access_unit_zero (Elt Ideal) main_arg3 hz' (fun a => by rw [congrFun hz' a]; simp) (V c main_arg3)

/-- The edge-feature block at point t, at (0, y, q, h), is the array at (t / 25, 8 · (t % 25) + y, q, h). -/
theorem iblkE0_apply (c : Dev nD) (t : Fin cfg1.N) (y : Fin 8) (q : Fin 200) (h : Fin 300) (b : Fin 4) (p : Fin 200)
    (hb : b.val = t.val / 25) (hp : p.val = (t.val % 25) * 8 + y.val) :
    (Edge.iblk V c 0 t : Vec Ideal S1x8x200x300 .f32) (ix4 (0 : Fin 1) y q h) = (V c main_arg1 : Vec Ideal S4x200x200x300 .f32) (ix4 b p q h) := by
  obtain ⟨e0, e1, e2, e3, -⟩ := edge_idx t
  unfold Edge.iblk
  rw [View.read_apply]
  show V c main_arg1 _ = V c main_arg1 _
  congr 1
  funext a
  apply Fin.ext
  match a with
  | ⟨0, _⟩ => show win1_0.index t (0 : Fin 4) * 1 + 1 * 0 = b.val; rw [e0, hb]; omega
  | ⟨1, _⟩ => show win1_0.index t (1 : Fin 4) * 8 + 1 * y.val = p.val; rw [e1, hp, Nat.one_mul]
  | ⟨2, _⟩ => show win1_0.index t (2 : Fin 4) * 200 + 1 * q.val = q.val; rw [e2]; omega
  | ⟨3, _⟩ => show win1_0.index t (3 : Fin 4) * 300 + 1 * h.val = h.val; rw [e3]; omega

/-- The source-node block at point t, at (0, y, g), is the node projections at (t / 25, 8 · (t % 25) + y, g). -/
theorem iblkE3_apply (c : Dev nD) (t : Fin cfg1.N) (y : Fin 8) (g : Fin 300) (b : Fin 4) (p : Fin 200)
    (hb : b.val = t.val / 25) (hp : p.val = (t.val % 25) * 8 + y.val) :
    (Edge.iblk V c 3 t : Vec Ideal S1x8x300 .f32) (ix3 (0 : Fin 1) y g) = (V c main_v1 : Vec Ideal S4x200x300 .f32) (ix3 b p g) := by
  obtain ⟨-, -, -, -, -, -, -, e0, e1, e2, -⟩ := edge_idx t
  unfold Edge.iblk
  rw [View.read_apply]
  show V c main_v1 _ = V c main_v1 _
  congr 1
  funext a
  apply Fin.ext
  match a with
  | ⟨0, _⟩ => show win1_3.index t (0 : Fin 3) * 1 + 1 * 0 = b.val; rw [e0, hb]; omega
  | ⟨1, _⟩ => show win1_3.index t (1 : Fin 3) * 8 + 1 * y.val = p.val; rw [e1, hp, Nat.one_mul]
  | ⟨2, _⟩ => show win1_3.index t (2 : Fin 3) * 300 + 1 * g.val = g.val; rw [e2]; omega

/-- The target-node block at point t, at (0, q, g), is the node projections at (t / 25, q, g). -/
theorem iblkE4_apply (c : Dev nD) (t : Fin cfg1.N) (q : Fin 200) (g : Fin 300) (b : Fin 4) (hb : b.val = t.val / 25) :
    (Edge.iblk V c 4 t : Vec Ideal S1x200x300 .f32) (ix3 (0 : Fin 1) q g) = (V c main_v1 : Vec Ideal S4x200x300 .f32) (ix3 b q g) := by
  obtain ⟨-, -, -, -, -, -, -, -, -, -, e0, e1, e2, -⟩ := edge_idx t
  unfold Edge.iblk
  rw [View.read_apply]
  show V c main_v1 _ = V c main_v1 _
  congr 1
  funext a
  apply Fin.ext
  match a with
  | ⟨0, _⟩ => show win1_4.index t (0 : Fin 3) * 1 + 1 * 0 = b.val; rw [e0, hb]; omega
  | ⟨1, _⟩ => show win1_4.index t (1 : Fin 3) * 200 + 1 * q.val = q.val; rw [e1]; omega
  | ⟨2, _⟩ => show win1_4.index t (2 : Fin 3) * 300 + 1 * g.val = g.val; rw [e2]; omega

/-- The output block's element (u, y, q, g) at point t sits in the array at (t / 25, 8 · (t % 25) + y, q, g). -/
theorem emb5 (t : Fin cfg1.N) (u : Fin 1) (y : Fin 8) (q : Fin 200) (g : Fin 300) (b : Fin 4) (p : Fin 200)
    (hb : b.val = t.val / 25) (hp : p.val = (t.val % 25) * 8 + y.val) :
    ((cfg1.win 5).blk t).view.emb (ix4 u y q g) = (ix4 b p q g : S4x200x200x300.Idx) := by
  obtain ⟨-, -, -, -, -, -, -, -, -, -, -, -, -, e0, e1, e2, e3⟩ := edge_idx t
  have hu : u.val = 0 := by omega
  funext a
  apply Fin.ext
  match a with
  | ⟨0, _⟩ => show win1_5.index t (0 : Fin 4) * 1 + 1 * u.val = b.val; rw [e0, hb, hu]; omega
  | ⟨1, _⟩ => show win1_5.index t (1 : Fin 4) * 8 + 1 * y.val = p.val; rw [e1, hp, Nat.one_mul]
  | ⟨2, _⟩ => show win1_5.index t (2 : Fin 4) * 200 + 1 * q.val = q.val; rw [e2]; omega
  | ⟨3, _⟩ => show win1_5.index t (3 : Fin 4) * 300 + 1 * g.val = g.val; rw [e3]; omega

/-- The second region's stored value at point t and block index (u, y, q, g) is `edgeAt'` of the entry arrays at the
    array index that block index sits at. -/
theorem edge_point (c : Dev nD) (t : Fin cfg1.N) (u : Fin 1) (y : Fin 8) (q : Fin 200) (g : Fin 300) (b : Fin 4) (p : Fin 200)
    (hb : b.val = t.val / 25) (hp : p.val = (t.val % 25) * 8 + y.val) :
    k1_pay1 (F := Ideal) (Edge.iblk V c 0 t) (V c main_v2) (V c main_arg3) (Edge.iblk V c 3 t) (Edge.iblk V c 4 t) (ix4 u y q g)
      = edgeAt' (V c main_arg1) (V c main_v2) (V c main_arg3) (V c main_v1) b p q g := by
  obtain rfl : u = 0 := Subsingleton.elim _ _
  refine (Cert.EdgePayload.k1_pay1_apply _ _ _ _ _ y q g).trans ?_
  unfold edgeAt'
  refine congrArg₂ (· + ·) (congrArg₂ (· + ·) (congrArg (· + _) (Finset.sum_congr rfl fun h _ => ?_)) ?_) ?_
  · exact congrArg (· * _) (iblkE0_apply V c t y q h b p hb hp)
  · exact iblkE3_apply V c t y g b p hb hp
  · exact iblkE4_apply V c t q g b hb

/-- WHAT POINT t WRITES BACK is block t of `edgeG` of the arrays as the region finds them. -/
theorem edge_flushed (c : Dev nD) (t : Fin cfg1.N) :
    (Edge.dat V c).flushed 5 t
      = ((cfg1.win 5).blk t).view.read (Elt Ideal) (edgeG (V c main_arg1) (V c main_v2) (V c main_arg3) (V c main_v1)) := by
  show (cfg1.win 5).cut (grid1.coords t) ((Edge.dat V c).after 5 t) = _
  rw [Edge.after_5]
  unfold Edge.out
  rw [View.canon_unit_zero hz4]
  simp only [View.ld_unit_zero (S := S1x8x200x300) hz4, View.ld_unit_zero (S := S300x300) hz2, View.ld_unit_zero (S := S300) hz1,
    View.ld_unit_zero (S := S1x8x300) hz3, View.ld_unit_zero (S := S1x200x300) hz3]
  rw [iblkE1 V c t, iblkE2 V c t]
  have hN : cfg1.N = 100 := N_1
  have ht : t.val < 100 := by have := t.isLt; omega
  funext j
  revert j
  show ∀ j : S1x8x200x300.Idx,
    k1_pay1 (F := Ideal) (Edge.iblk V c 0 t) (V c main_v2) (V c main_arg3) (Edge.iblk V c 3 t) (Edge.iblk V c 4 t) j
      = ((cfg1.win 5).blk t).view.read (Elt Ideal) (edgeG (V c main_arg1) (V c main_v2) (V c main_arg3) (V c main_v1)) j
  intro j
  obtain ⟨u, y, q, g, rfl⟩ : ∃ (u : Fin 1) (y : Fin 8) (q : Fin 200) (g : Fin 300), j = ix4 u y q g :=
    ⟨j 0, j 1, j 2, j 3, eq_ix4 j⟩
  have hb : t.val / 25 < 4 := by omega
  have hp : (t.val % 25) * 8 + y.val < 200 := by omega
  rw [View.read_apply]
  exact (edge_point V c t u y q g ⟨t.val / 25, hb⟩ ⟨(t.val % 25) * 8 + y.val, hp⟩ rfl rfl).trans
    (congrArg (edgeG (V c main_arg1) (V c main_v2) (V c main_arg3) (V c main_v1))
      (emb5 t u y q g ⟨t.val / 25, hb⟩ ⟨(t.val % 25) * 8 + y.val, hp⟩ rfl rfl)).symm

/-- Every index (b, p, q, g) of the output array is in the block of the point 25 · b + p / 8. -/
theorem edge_cover (i : S4x200x200x300.Idx) :
    ∃ t : Fin cfg1.N, (cfg1.win 5).flush t = true ∧ i ∈ ((cfg1.win 5).blk t).view.set := by
  have h0 : (i 0 : Nat) < 4 := (i 0).isLt
  have h1 : (i 1 : Nat) < 200 := (i 1).isLt
  have h2 : (i 2 : Nat) < 200 := (i 2).isLt
  have h3 : (i 3 : Nat) < 300 := (i 3).isLt
  have hN : cfg1.N = 100 := N_1
  obtain ⟨t, ht⟩ : ∃ t : Fin cfg1.N, t.val = 25 * (i 0).val + (i 1).val / 8 := ⟨⟨_, by rw [hN]; omega⟩, rfl⟩
  obtain ⟨-, -, -, -, -, -, -, -, -, -, -, -, -, e0, e1, e2, e3⟩ := edge_idx t
  refine ⟨t, flush1_5 t, ?_⟩
  show i ∈ ((View.whole main_v3).slice (win1_5.rect t)).set
  rw [View.set_slice_whole, Rect.mem_set_unit]
  intro a
  match a with
  | ⟨0, _⟩ =>
    show win1_5.index t (0 : Fin 4) * 1 ≤ (i 0 : Nat) ∧ (i 0 : Nat) < win1_5.index t (0 : Fin 4) * 1 + 1
    rw [e0, ht]; omega
  | ⟨1, _⟩ =>
    show win1_5.index t (1 : Fin 4) * 8 ≤ (i 1 : Nat) ∧ (i 1 : Nat) < win1_5.index t (1 : Fin 4) * 8 + 8
    rw [e1, ht]; omega
  | ⟨2, _⟩ =>
    show win1_5.index t (2 : Fin 4) * 200 ≤ (i 2 : Nat) ∧ (i 2 : Nat) < win1_5.index t (2 : Fin 4) * 200 + 200
    rw [e2]; omega
  | ⟨3, _⟩ =>
    show win1_5.index t (3 : Fin 4) * 300 ≤ (i 3 : Nat) ∧ (i 3 : Nat) < win1_5.index t (3 : Fin 4) * 300 + 300
    rw [e3]; omega

/-- So the output array ends holding `edgeG` of the entry arrays. -/
theorem edge_final_of (c : Dev nD) :
    (Edge.dat V c).arrAt 5 cfg1.N = edgeG (V c main_arg1) (V c main_v2) (V c main_arg3) (V c main_v1) :=
  (Edge.dat V c).arrAt_eq_of_cover 5 _ (fun t _ => edge_flushed V c t) edge_cover

/-! ## The arrays as the second region finds them -/

/-- Neither transposition nor the first region writes the edge features, the edge bias or the edge weights … -/
theorem V3_arg1 (c : Dev nD) : Whole.V3 m c main_arg1 = m ((c.tc : Thread nD τ).loc main_arg1) :=
  calc Whole.W3 m c (Proc.devRef .tc main_arg1)
    _ = Whole.W2 m c (Proc.devRef .tc main_arg1) := StableHlo.after_of_writes_sub hostOps1 _ hostOps1_writes (by decide)
    _ = Whole.W1 m c (Proc.devRef .tc main_arg1) := Whole.W2_of_ne m c main_arg1 (by decide)
    _ = Whole.W0 m c (Proc.devRef .tc main_arg1) := StableHlo.after_of_writes_sub hostOps0 _ hostOps0_writes (by decide)
    _ = m ((c.tc : Thread nD τ).loc main_arg1) := rfl

theorem V3_arg3 (c : Dev nD) : Whole.V3 m c main_arg3 = m ((c.tc : Thread nD τ).loc main_arg3) :=
  calc Whole.W3 m c (Proc.devRef .tc main_arg3)
    _ = Whole.W2 m c (Proc.devRef .tc main_arg3) := StableHlo.after_of_writes_sub hostOps1 _ hostOps1_writes (by decide)
    _ = Whole.W1 m c (Proc.devRef .tc main_arg3) := Whole.W2_of_ne m c main_arg3 (by decide)
    _ = Whole.W0 m c (Proc.devRef .tc main_arg3) := StableHlo.after_of_writes_sub hostOps0 _ hostOps0_writes (by decide)
    _ = m ((c.tc : Thread nD τ).loc main_arg3) := rfl

theorem W2_arg2 (c : Dev nD) : Whole.W2 m c (Proc.devRef .tc main_arg2) = m ((c.tc : Thread nD τ).loc main_arg2) :=
  calc Whole.W2 m c (Proc.devRef .tc main_arg2)
    _ = Whole.W1 m c (Proc.devRef .tc main_arg2) := Whole.W2_of_ne m c main_arg2 (by decide)
    _ = Whole.W0 m c (Proc.devRef .tc main_arg2) := StableHlo.after_of_writes_sub hostOps0 _ hostOps0_writes (by decide)
    _ = m ((c.tc : Thread nD τ).loc main_arg2) := rfl

/-- … the second transposition leaves the transposed edge weights in its result … -/
theorem V3_v2 (c : Dev nD) : Whole.V3 m c main_v2
    = transpose S300x300 [1, 0] (m ((c.tc : Thread nD τ).loc main_arg2) : Vec Ideal S300x300 .f32) transposes_S300x300_S300x300_1_0 := by
  rw [← W2_arg2 m c]
  show StableHlo.after hostOps1 _ (Proc.devRef .tc main_v2) = _
  after_results

/-- … and the node projections are what the first region left: the specification's node projection. -/
theorem V3_v1 (c : Dev nD) : Whole.V3 m c main_v1
    = Cert.EdgeSpec.node (m ((c.tc : Thread nD τ).loc main_arg0)) (m ((c.tc : Thread nD τ).loc main_arg4)) (m ((c.tc : Thread nD τ).loc main_arg5)) :=
  calc Whole.W3 m c (Proc.devRef .tc main_v1)
    _ = Whole.W2 m c (Proc.devRef .tc main_v1) := StableHlo.after_of_writes_sub hostOps1 _ hostOps1_writes (by decide)
    _ = (Node.dat (Whole.V1 m) c).arrAt 3 cfg0.N := Whole.W2_arr m c 3
    _ = _ := node_final m c

/-- With T the transpose of Uw and N the specification's node projection, `edgeG` is the specification's edge update. -/
theorem edgeG_transpose (X : Vec Ideal S4x200x300 .f32) (E : Vec Ideal S4x200x200x300 .f32) (Uw : Vec Ideal S300x300 .f32)
    (Ub : Vec Ideal S300 .f32) (Vw : Vec Ideal S300x300 .f32) (Vb : Vec Ideal S300 .f32) (h : S300x300.Transposes [1, 0] S300x300) :
    edgeG E (transpose S300x300 [1, 0] Uw h) Ub (Cert.EdgeSpec.node X Vw Vb) = Cert.EdgeSpec.edge X E Uw Ub Vw Vb := by
  funext i
  unfold edgeG edgeAt' Cert.EdgeSpec.edge Cert.EdgeSpec.edgeAt
  refine congrArg (· + _) (congrArg (· + _) (congrArg (· + Ub (ix1 (i 3))) (Finset.sum_congr rfl fun k _ => ?_)))
  exact congrArg (E (ix4 (i 0) (i 1) (i 2) k) * ·) (transpose_ix2_apply Uw h k (i 3))

/-- THE SECOND REGION'S OUTPUT ARRAY after the run is the specification's edge update of the launch memory. -/
theorem edge_final (c : Dev nD) : (Cert.KernelIdeal.Edge.dat (F := Ideal) (Cert.KernelIdeal.Whole.V3 m) c).arrAt 5 cfg1.N
      = Cert.EdgeSpec.edge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [edge_final_of (Whole.V3 m) c, V3_arg1 m c, V3_arg3 m c, V3_v2 m c, V3_v1 m c]
  exact edgeG_transpose _ _ _ _ _ _ _

end Cert.KernelIdeal.Result
end
-- ==== Proof.RefIsEdge.lean ====
/-
  The reference's last stage, read element by element, is the edge update of the specification.

  At an index (b, i, j, g) the last stage is a sum of three terms, grouped to the left:
    the edge's own projection  (Σ_h e[b,i,j,h] · Uw[g,h]) + Ub[g],
    the node projection, inserted along axis 2 and repeated there, read at (b, i, g),
    the node projection, inserted along axis 1 and repeated there, read at (b, j, g).
  Each repetition reads its operand at the index with the repeated axis dropped, so the three terms are the three
  terms of the specification, in the same grouping: no law of the extended reals is needed.
-/
import proofs.«102349_j48601849922135_1_alg».proof.Proof.Gen.ReferenceIdeal.Read
import proofs.«102349_j48601849922135_1_alg».proof.Proof.EdgeSpec

noncomputable section

namespace Cert.RefIsEdge

open Cert.ReferenceIdeal Cert.ReferenceIdeal.Read Idealize.ShloMosaic Idealize.ShloMosaic.ValueIdx

/-- The node projection stage at (b, n, g) is the specification's node projection. -/
theorem node_stage (x0 : FVec Ideal S4x200x300 .f32) (x4 : FVec Ideal S300x300 .f32) (x5 : FVec Ideal S300 .f32)
    (b : Fin 4) (n : Fin 200) (g : Fin 300) :
    val_main_v7 (F := Ideal) x0 x4 x5 (ix3 b n g) = Cert.EdgeSpec.nodeAt x0 x4 x5 b n g := by
  rw [val_main_v7_apply, val_main_v4_apply, val_main_v6_apply, val_main_v5_apply]
  have el : ∀ k : Fin 300, lidx_main_v4 (ix3 b n g) k = ix3 b n k := fun k =>
    funext fun a => by match a with | ⟨0, _⟩ => rfl | ⟨1, _⟩ => rfl | ⟨2, _⟩ => rfl
  have er : ∀ k : Fin 300, ridx_main_v4 (ix3 b n g) k = ix2 g k := fun k =>
    funext fun a => by match a with | ⟨0, _⟩ => rfl | ⟨1, _⟩ => rfl
  have eb : idx_main_v5 (idx_main_v6 (ix3 b n g)) = ix1 g :=
    funext fun a => by match a with | ⟨0, _⟩ => rfl
  rw [eb]
  unfold Cert.EdgeSpec.nodeAt
  refine congrArg (· + x5 (ix1 g)) (Finset.sum_congr rfl fun k _ => ?_)
  rw [el, er]

/-- The edge's own projection stage at (b, i, j, g). -/
theorem own_stage (x1 : FVec Ideal S4x200x200x300 .f32) (x2 : FVec Ideal S300x300 .f32) (x3 : FVec Ideal S300 .f32)
    (b : Fin 4) (i j : Fin 200) (g : Fin 300) :
    val_main_v3 (F := Ideal) x1 x2 x3 (ix4 b i j g)
      = (∑ h : Fin 300, x1 (ix4 b i j h) * x2 (ix2 g h)) + x3 (ix1 g) := by
  rw [val_main_v3_apply, val_main_v0_apply, val_main_v2_apply, val_main_v1_apply]
  have el : ∀ k : Fin 300, lidx_main_v0 (ix4 b i j g) k = ix4 b i j k := fun k =>
    funext fun a => by match a with | ⟨0, _⟩ => rfl | ⟨1, _⟩ => rfl | ⟨2, _⟩ => rfl | ⟨3, _⟩ => rfl
  have er : ∀ k : Fin 300, ridx_main_v0 (ix4 b i j g) k = ix2 g k := fun k =>
    funext fun a => by match a with | ⟨0, _⟩ => rfl | ⟨1, _⟩ => rfl
  have eb : idx_main_v1 (idx_main_v2 (ix4 b i j g)) = ix1 g :=
    funext fun a => by match a with | ⟨0, _⟩ => rfl
  rw [eb]
  refine congrArg (· + x3 (ix1 g)) (Finset.sum_congr rfl fun k _ => ?_)
  rw [el, er]

/-- The reference's last stage is the specification's edge update. -/
theorem ref_eq (x0 : FVec Ideal Cert.ReferenceIdeal.S4x200x300 .f32) (x1 : FVec Ideal Cert.ReferenceIdeal.S4x200x200x300 .f32)
    (x2 : FVec Ideal Cert.ReferenceIdeal.S300x300 .f32) (x3 : FVec Ideal Cert.ReferenceIdeal.S300 .f32)
    (x4 : FVec Ideal Cert.ReferenceIdeal.S300x300 .f32) (x5 : FVec Ideal Cert.ReferenceIdeal.S300 .f32) :
    Cert.ReferenceIdeal.Read.val_main_v13 (F := Ideal) x0 x1 x2 x3 x4 x5 = Cert.EdgeSpec.edge x0 x1 x2 x3 x4 x5 := by
  funext idx
  obtain ⟨b, i, j, g, rfl⟩ : ∃ b i j g, idx = ix4 b i j g := ⟨idx 0, idx 1, idx 2, idx 3, eq_ix4 idx⟩
  rw [val_main_v13_apply, val_main_v10_apply, val_main_v9_apply, val_main_v8_apply, val_main_v12_apply,
    val_main_v11_apply]
  have e1 : idx_main_v8 (idx_main_v9 (ix4 b i j g)) = ix3 b i g :=
    funext fun a => by match a with | ⟨0, _⟩ => rfl | ⟨1, _⟩ => rfl | ⟨2, _⟩ => rfl
  have e2 : idx_main_v11 (idx_main_v12 (ix4 b i j g)) = ix3 b j g :=
    funext fun a => by match a with | ⟨0, _⟩ => rfl | ⟨1, _⟩ => rfl | ⟨2, _⟩ => rfl
  rw [e1, e2, node_stage, node_stage, own_stage]
  rfl

end Cert.RefIsEdge

end
-- ==== Proof.lean ====
/-
  The certificate of the edge update of a message-passing layer: a kernel program of two regions — the node projections
  `x·Vwᵀ + Vb`, then, tile by tile, the edge update `e·Uwᵀ + Ub + node[source] + node[target]` — against the same
  computation written as two contractions and broadcasts on the host.

  Frames. Each kernel program's run (the word-level one and its reading over the extended reals alike) follows the
  contents of every unscoped buffer through @main's four items and ends with each of them at the last contents; no
  item writes an argument. The host program's frame is its run with the result dropped.

  Values, over the extended reals. The first region's one block is the whole node-projection array. The second region's
  hundred blocks of eight rows of edges each tile the result; the block at graph `b`, rows `8i … 8i+7` holds the update
  computed from those rows of `e`, the node projections of the eight source nodes and those of all target nodes of graph
  `b`. Both programs add the three terms in the same order and sum the same products over the input channel, so they
  agree entry by entry with no law that would need a finite input.
-/
import proofs.«102349_j48601849922135_1_alg».proof.Defs
import proofs.«102349_j48601849922135_1_alg».proof.Proof.Gen.Kernel
import proofs.«102349_j48601849922135_1_alg».proof.Proof.Gen.KernelIdeal
import proofs.«102349_j48601849922135_1_alg».proof.Proof.Gen.ReferenceIdeal
import proofs.«102349_j48601849922135_1_alg».proof.Proof.Gen.Pre_finite_inputs
import proofs.«102349_j48601849922135_1_alg».proof.Proof.Gen.ReferenceIdeal.Read
import proofs.«102349_j48601849922135_1_alg».proof.Proof.WordsRun
import proofs.«102349_j48601849922135_1_alg».proof.Proof.IdealRun
import proofs.«102349_j48601849922135_1_alg».proof.Proof.IdealResult
import proofs.«102349_j48601849922135_1_alg».proof.Proof.RefIsEdge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_words : Cert.frame_Kernel := fun m ρ _ =>
  (θ_run Cert.Kernel.defs _ _).mono (fun r h c =>
    ⟨(h c _ (Cert.Kernel.Whole.mem_uc Cert.Kernel.main_arg0 (by decide))).trans (Cert.Kernel.Whole.W4_main_arg0 m c),
     (h c _ (Cert.Kernel.Whole.mem_uc Cert.Kernel.main_arg1 (by decide))).trans (Cert.Kernel.Whole.W4_main_arg1 m c),
     (h c _ (Cert.Kernel.Whole.mem_uc Cert.Kernel.main_arg2 (by decide))).trans (Cert.Kernel.Whole.W4_main_arg2 m c),
     (h c _ (Cert.Kernel.Whole.mem_uc Cert.Kernel.main_arg3 (by decide))).trans (Cert.Kernel.Whole.W4_main_arg3 m c),
     (h c _ (Cert.Kernel.Whole.mem_uc Cert.Kernel.main_arg4 (by decide))).trans (Cert.Kernel.Whole.W4_main_arg4 m c),
     (h c _ (Cert.Kernel.Whole.mem_uc Cert.Kernel.main_arg5 (by decide))).trans (Cert.Kernel.Whole.W4_main_arg5 m c)⟩)
    (Cert.Kernel.Whole.run_main (F := Bits) m ρ)

/-- The kernel program over the extended reals runs, leaves its arguments as launched, and ends with the result array
    at the edge update of the launch contents. -/
theorem ideal_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v3)
          = Cert.EdgeSpec.edge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun r h c =>
    ⟨((h c _ (Cert.KernelIdeal.Whole.mem_uc Cert.KernelIdeal.main_v3 (by decide))).trans (Cert.KernelIdeal.Whole.W4_out m c)).trans
        (Cert.KernelIdeal.Result.edge_final m c),
     (h c _ (Cert.KernelIdeal.Whole.mem_uc Cert.KernelIdeal.main_arg0 (by decide))).trans (Cert.KernelIdeal.Whole.W4_main_arg0 m c),
     (h c _ (Cert.KernelIdeal.Whole.mem_uc Cert.KernelIdeal.main_arg1 (by decide))).trans (Cert.KernelIdeal.Whole.W4_main_arg1 m c),
     (h c _ (Cert.KernelIdeal.Whole.mem_uc Cert.KernelIdeal.main_arg2 (by decide))).trans (Cert.KernelIdeal.Whole.W4_main_arg2 m c),
     (h c _ (Cert.KernelIdeal.Whole.mem_uc Cert.KernelIdeal.main_arg3 (by decide))).trans (Cert.KernelIdeal.Whole.W4_main_arg3 m c),
     (h c _ (Cert.KernelIdeal.Whole.mem_uc Cert.KernelIdeal.main_arg4 (by decide))).trans (Cert.KernelIdeal.Whole.W4_main_arg4 m c),
     (h c _ (Cert.KernelIdeal.Whole.mem_uc Cert.KernelIdeal.main_arg5 (by decide))).trans (Cert.KernelIdeal.Whole.W4_main_arg5 m c)⟩)
    (Cert.KernelIdeal.Whole.run_main (F := Ideal) m ρ)

theorem frame_ideal : Cert.frame_KernelIdeal := fun m ρ _ =>
  (θ_run Cert.KernelIdeal.defs _ _).mono (fun _ h c => (h c).2) (ideal_run m ρ)

/-- The host program's frame: its run with the result dropped. -/
theorem frame_host : Cert.frame_ReferenceIdeal := fun m ρ _ =>
  (θ_run Cert.ReferenceIdeal.defs _ _).mono (fun _ h c => (h c).2) (Cert.ReferenceIdeal.Value.run (F := Ideal) m ρ)

/-- Over the extended reals both programs end with the result at the edge update of arguments that agree. -/
theorem algebraic : Cert.algebraic_KernelIdeal_ReferenceIdeal := by
  intro m ρ m' ρ' _ hagree
  refine ⟨_, ideal_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.RefIsEdge.ref_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_words, frame_ideal, frame_host, trivial, algebraic⟩

end Cert.Proof

end
